-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x6400000 : Shape := ⟨2, ![2, 6400000]⟩
abbrev S10x16 : Shape := ⟨2, ![10, 16]⟩
abbrev S16 : Shape := ⟨1, ![16]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S10x16 1) : IVec S_ 1 :=
  let main_c_5 : IVec S_ 1 := constantI S_ 1 1#1
  let main_v17 : IVec S_ 1 := (fun x v => Host.reduce IntOp.andi x v reducesTo_S10x16_S_d0_1 h_S_) main_v16 main_c_5
  let main_v18 : IVec S_ 1 := andi main_v13 main_v17
  main_v18

def fn {F : FTy → Type} [FloatOps F] (main_arg0 : FVec F S100000x10 .f32) (main_arg1 : IVec S2x6400000 32) (main_arg2 : FVec F S10x16 .f32) (main_arg3 : FVec F S16 .f32) (main_arg4 : FVec F S10x16 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x16 .f32 := Host.absf main_arg2
  let main_cst_0 : FVec F S_ .f32 := constant S_ .f32 0x7F800000#32
  let main_v5 : FVec F S10x16 .f32 := broadcastInDim S10x16 ![] bcast_S_S10x16 main_cst_0
  let main_v6 : IVec S10x16 1 := cmpf .olt main_v4 main_v5
  let main_c_1 : IVec S_ 1 := constantI S_ 1 1#1
  let main_v7 : IVec S_ 1 := (fun x v => Host.reduce IntOp.andi x v reducesTo_S10x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S10x16 .f32 := Host.absf main_arg4
  let main_cst_4 : FVec F S_ .f32 := constant S_ .f32 0x7F800000#32
  let main_v15 : FVec F S10x16 .f32 := broadcastInDim S10x16 ![] bcast_S_S10x16 main_cst_4
  let main_v16 : IVec S10x16 1 := cmpf .olt main_v14 main_v15
  fn_part1 (F := F) main_v13 main_v16
-- ==== Kernel.lean ====
abbrev S100000x10 : Shape := ⟨2, ![100000, 10]⟩
abbrev S2x6400000 : Shape := ⟨2, ![2, 6400000]⟩
abbrev S10x16 : Shape := ⟨2, ![10, 16]⟩
abbrev S16 : Shape := ⟨1, ![16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x10 : Shape := ⟨2, ![6400000, 10]⟩
abbrev S6400000x11 : Shape := ⟨2, ![6400000, 11]⟩
abbrev S100000x11 : Shape := ⟨2, ![100000, 11]⟩
abbrev S100000x1 : Shape := ⟨2, ![100000, 1]⟩
abbrev S100000 : Shape := ⟨1, ![100000]⟩
abbrev S10x100000 : Shape := ⟨2, ![10, 100000]⟩
abbrev S10x100352 : Shape := ⟨2, ![10, 100352]⟩
abbrev S1x100000 : Shape := ⟨2, ![1, 100000]⟩
abbrev S1x100352 : Shape := ⟨2, ![1, 100352]⟩
abbrev S16x10 : Shape := ⟨2, ![16, 10]⟩
abbrev S16x1 : Shape := ⟨2, ![16, 1]⟩
abbrev S16x100352 : Shape := ⟨2, ![16, 100352]⟩
abbrev S10x12544 : Shape := ⟨2, ![10, 12544]⟩
abbrev S1x12544 : Shape := ⟨2, ![1, 12544]⟩
abbrev S16x12544 : Shape := ⟨2, ![16, 12544]⟩
abbrev S16x100000 : Shape := ⟨2, ![16, 100000]⟩
abbrev S100000x16 : Shape := ⟨2, ![100000, 16]⟩

abbrev nBuf : Space → Nat
  | .hbm => 46
  | .vmem => 11
  | .smem => 0
  | _ => 0

abbrev bufTy : (tb : Table) → Fin (tcTables nBuf tb) → BufTy
  | .hbm, ⟨0, _⟩ => ⟨S100000x10, .f32⟩
  | .hbm, ⟨1, _⟩ => ⟨S2x6400000, .i32⟩
  | .hbm, ⟨2, _⟩ => ⟨S10x16, .f32⟩
  | .hbm, ⟨3, _⟩ => ⟨S16, .f32⟩
  | .hbm, ⟨4, _⟩ => ⟨S10x16, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .f32⟩
  | .hbm, ⟨10, _⟩ => ⟨S6400000x1, .f32⟩
  | .hbm, ⟨11, _⟩ => ⟨S_, .i32⟩
  | .hbm, ⟨12, _⟩ => ⟨S6400000, .i32⟩
  | .hbm, ⟨13, _⟩ => ⟨S6400000, .i1⟩
  | .hbm, ⟨14, _⟩ => ⟨S_, .i32⟩
  | .hbm, ⟨15, _⟩ => ⟨S6400000, .i32⟩
  | .hbm, ⟨16, _⟩ => ⟨S6400000, .i32⟩
  | .hbm, ⟨17, _⟩ => ⟨S6400000, .i32⟩
  | .hbm, ⟨18, _⟩ => ⟨S6400000x1, .i32⟩
  | .hbm, ⟨19, _⟩ => ⟨S6400000x10, .f32⟩
  | .hbm, ⟨20, _⟩ => ⟨S6400000x11, .f32⟩
  | .hbm, ⟨21, _⟩ => ⟨S_, .f32⟩
  | .hbm, ⟨22, _⟩ => ⟨S100000x11, .f32⟩
  | .hbm, ⟨23, _⟩ => ⟨S6400000x1, .i32⟩
  | .hbm, ⟨24, _⟩ => ⟨S100000x11, .f32⟩
  | .hbm, ⟨25, _⟩ => ⟨S100000x10, .f32⟩
  | .hbm, ⟨26, _⟩ => ⟨S100000x1, .f32⟩
  | .hbm, ⟨27, _⟩ => ⟨S100000, .f32⟩
  | .hbm, ⟨28, _⟩ => ⟨S10x100000, .f32⟩
  | .hbm, ⟨29, _⟩ => ⟨S_, .i32⟩
  | .hbm, ⟨30, _⟩ => ⟨S_, .f32⟩
  | .hbm, ⟨31, _⟩ => ⟨S10x100352, .f32⟩
  | .hbm, ⟨32, _⟩ => ⟨S10x100000, .f32⟩
  | .hbm, ⟨33, _⟩ => ⟨S_, .i32⟩
  | .hbm, ⟨34, _⟩ => ⟨S_, .f32⟩
  | .hbm, ⟨35, _⟩ => ⟨S10x100352, .f32⟩
  | .hbm, ⟨36, _⟩ => ⟨S1x100000, .f32⟩
  | .hbm, ⟨37, _⟩ => ⟨S_, .i32⟩
  | .hbm, ⟨38, _⟩ => ⟨S_, .f32⟩
  | .hbm, ⟨39, _⟩ => ⟨S1x100352, .f32⟩
  | .hbm, ⟨40, _⟩ => ⟨S16x10, .f32⟩
  | .hbm, ⟨41, _⟩ => ⟨S16x10, .f32⟩
  | .hbm, ⟨42, _⟩ => ⟨S16x1, .f32⟩
  | .hbm, ⟨43, _⟩ => ⟨S16x100352, .f32⟩
  | .hbm, ⟨44, _⟩ => ⟨S16x100000, .f32⟩
  | .hbm, ⟨45, _⟩ => ⟨S100000x16, .f32⟩
  | .local _ .vmem, ⟨0, _⟩ => ⟨S10x12544, .f32⟩
  | .local _ .vmem, ⟨1, _⟩ => ⟨S10x12544, .f32⟩
  | .local _ .vmem, ⟨2, _⟩ => ⟨S1x12544, .f32⟩
  | .local _ .vmem, ⟨3, _⟩ => ⟨S1x12544, .f32⟩
  | .local _ .vmem, ⟨4, _⟩ => ⟨S10x12544, .f32⟩
  | .local _ .vmem, ⟨5, _⟩ => ⟨S10x12544, .f32⟩
  | .local _ .vmem, ⟨6, _⟩ => ⟨S16x10, .f32⟩
  | .local _ .vmem, ⟨7, _⟩ => ⟨S16x1, .f32⟩
  | .local _ .vmem, ⟨8, _⟩ => ⟨S16x10, .f32⟩
  | .local _ .vmem, ⟨9, _⟩ => ⟨S16x12544, .f32⟩
  | .local _ .vmem, ⟨10, _⟩ => ⟨S16x12544, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_call2_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S10x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x12544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x12544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000x1 : S_.BroadcastsInDim S6400000x1 (![] : Fin 0 → Fin S6400000x1.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x10_S6400000x1_S6400000x11_d1 : Shape.Concatenates [S6400000x10, S6400000x1] S6400000x11 1
  bcast_S_S100000x11 : S_.BroadcastsInDim S100000x11 (![] : Fin 0 → Fin S100000x11.rank)
  slices_S100000x11_S100000x10_0_0 : S100000x11.Slices ![0, 0] S100000x10
  slices_S100000x11_S100000x1_0_10 : S100000x11.Slices ![0, 10] S100000x1
  shapeCasts_S100000x1_S100000 : S100000x1.ShapeCasts S100000
  transposes_S100000x10_S10x100000_1_0 : S100000x10.Transposes [1, 0] S10x100000
  pads_S10x100000_S10x100352_000_03520 : S10x100000.Pads (![0, 0] : Fin 2 → Nat) ![0, 352] ![0, 0] S10x100352
  h_S_ : 0 < S_.numel
  bcast_S100000_S1x100000_1 : S100000.BroadcastsInDim S1x100000 (![1] : Fin 1 → Fin S1x100000.rank)
  pads_S1x100000_S1x100352_000_03520 : S1x100000.Pads (![0, 0] : Fin 2 → Nat) ![0, 352] ![0, 0] S1x100352
  transposes_S10x16_S16x10_1_0 : S10x16.Transposes [1, 0] S16x10
  bcast_S16_S16x1_0 : S16.BroadcastsInDim S16x1 (![0] : Fin 1 → Fin S16x1.rank)
  inb_S1x12544_S1x12544_0_0 : ∀ a, (![0, 0] : Fin 2 → Nat) a + S1x12544.size a ≤ S1x12544.size a
  h_S1x12544 : 0 < S1x12544.numel
  shapeCasts_S1x12544_S1x12544 : S1x12544.ShapeCasts S1x12544
  inb_S10x12544_S10x12544_0_0 : ∀ a, (![0, 0] : Fin 2 → Nat) a + S10x12544.size a ≤ S10x12544.size a
  h_S10x12544 : 0 < S10x12544.numel
  shapeCasts_S10x12544_S10x12544 : S10x12544.ShapeCasts S10x12544
  broadcasts_S1x12544_S10x12544 : S1x12544.Broadcasts S10x12544
  bitsLt_bf16_f32 : FTy.bits .bf16 < FTy.bits .f32
  inb_S16x10_S16x10_0_0 : ∀ a, (![0, 0] : Fin 2 → Nat) a + S16x10.size a ≤ S16x10.size a
  h_S16x10 : 0 < S16x10.numel
  shapeCasts_S16x10_S16x10 : S16x10.ShapeCasts S16x10
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x12544 : S16x1.Broadcasts S16x12544
  inb_S16x12544_S16x12544_0_0 : ∀ a, (![0, 0] : Fin 2 → Nat) a + S16x12544.size a ≤ S16x12544.size a
  h_S16x12544 : 0 < S16x12544.numel
  slices_S16x100352_S16x100000_0_0 : S16x100352.Slices ![0, 0] S16x100000
  transposes_S16x100000_S100000x16_1_0 : S16x100000.Transposes [1, 0] S100000x16
  gather_S100000x10_S6400000x1_S6400000x10_1_0_n_n_0_1_110_wf : GatherDims.WF S100000x10 S6400000x1 S6400000x10 [1] [0] [] [0] [] 1 ![1, 10]
  scatter_S100000x11_S6400000x1_S6400000x11_1_0_0_1_wf : ScatterDims.WF S100000x11 S6400000x1 S6400000x11 [1] [0] [0] 1
  dot_S16x10_S10x12544_S16x12544_1_0_0_1_n_n_wf : DotDims.WF S16x10 S10x12544 S16x12544 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x12544.size a ≤ S10x100352.size a
  hwx0_0 : ∀ i : grid0.Coords, EltTy.bits .f32 = 32 ∨ (Rect.block (s := S10x100352) S10x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12544.size a ≤ S1x100352.size a
  hwx0_1 : ∀ i : grid0.Coords, EltTy.bits .f32 = 32 ∨ (Rect.block (s := S1x100352) S1x12544.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x12544.size a ≤ S10x100352.size a
  hwx0_2 : ∀ i : grid0.Coords, EltTy.bits .f32 = 32 ∨ (Rect.block (s := S10x100352) S10x12544.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x10.size a ≤ S16x10.size a
  hwx0_3 : ∀ i : grid0.Coords, EltTy.bits .f32 = 32 ∨ (Rect.block (s := S16x10) S16x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x10.size a ≤ S16x10.size a
  hwx0_5 : ∀ i : grid0.Coords, EltTy.bits .f32 = 32 ∨ (Rect.block (s := S16x10) S16x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x12544.size a ≤ S16x100352.size a
  hwx0_6 : ∀ i : grid0.Coords, EltTy.bits .f32 = 32 ∨ (Rect.block (s := S16x100352) S16x12544.size (cc0_transform_6 i) (hinb0_6 i)).WholeWords (EltTy.packing .f32)

variable [Facts₀]

def gather_S100000x10_S6400000x1_S6400000x10_1_0_n_n_0_1_110 : GatherDims S100000x10 S6400000x1 S6400000x10 where
  offsetDims := [1]
  collapsedSliceDims := [0]
  operandBatchingDims := []
  startIndicesBatchingDims := []
  startIndexMap := [0]
  indexVectorDim := 1
  sliceSizes := ![1, 10]
  wf := gather_S100000x10_S6400000x1_S6400000x10_1_0_n_n_0_1_110_wf
def scatter_S100000x11_S6400000x1_S6400000x11_1_0_0_1 : ScatterDims S100000x11 S6400000x1 S6400000x11 where
  updateWindowDims := [1]
  insertedWindowDims := [0]
  scatterDimsToOperandDims := [0]
  indexVectorDim := 1
  wf := scatter_S100000x11_S6400000x1_S6400000x11_1_0_0_1_wf
def dot_S16x10_S10x12544_S16x12544_1_0_0_1_n_n : DotDims S16x10 S10x12544 S16x12544 where
  lhsContracting := [1]
  rhsContracting := [0]
  lhsNonContracting := [0]
  rhsNonContracting := [1]
  lhsBatch := []
  rhsBatch := []
  wf := dot_S16x10_S10x12544_S16x12544_1_0_0_1_n_n_wf

abbrev win0_0 : Pipeline.Window sig grid0 :=
  Pipeline.Window.ofSpec (Memref.whole main_v20) S10x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S10x12544.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S16x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S16x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S16x12544.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x10 : Shape := ⟨2, ![100000, 10]⟩
abbrev S2x6400000 : Shape := ⟨2, ![2, 6400000]⟩
abbrev S10x16 : Shape := ⟨2, ![10, 16]⟩
abbrev S16 : Shape := ⟨1, ![16]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x10 : Shape := ⟨2, ![6400000, 10]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩

abbrev nBuf : Space → Nat
  | .hbm => 40
  | .vmem => 0
  | .smem => 0
  | _ => 0

abbrev bufTy : (tb : Table) → Fin (tcTables nBuf tb) → BufTy
  | .hbm, ⟨0, _⟩ => ⟨S100000x10, .f32⟩
  | .hbm, ⟨1, _⟩ => ⟨S2x6400000, .i32⟩
  | .hbm, ⟨2, _⟩ => ⟨S10x16, .f32⟩
  | .hbm, ⟨3, _⟩ => ⟨S16, .f32⟩
  | .hbm, ⟨4, _⟩ => ⟨S10x16, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000x10, .f32⟩
  | .hbm, ⟨18, _⟩ => ⟨S_, .f32⟩
  | .hbm, ⟨19, _⟩ => ⟨S100000x10, .f32⟩
  | .hbm, ⟨20, _⟩ => ⟨S6400000x1, .i32⟩
  | .hbm, ⟨21, _⟩ => ⟨S100000x10, .f32⟩
  | .hbm, ⟨22, _⟩ => ⟨S_, .f32⟩
  | .hbm, ⟨23, _⟩ => ⟨S6400000, .f32⟩
  | .hbm, ⟨24, _⟩ => ⟨S_, .f32⟩
  | .hbm, ⟨25, _⟩ => ⟨S100000, .f32⟩
  | .hbm, ⟨26, _⟩ => ⟨S6400000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x10, .f32⟩
  | .hbm, ⟨33, _⟩ => ⟨S100000x10, .f32⟩
  | .hbm, ⟨34, _⟩ => ⟨S100000x16, .f32⟩
  | .hbm, ⟨35, _⟩ => ⟨S1x16, .f32⟩
  | .hbm, ⟨36, _⟩ => ⟨S100000x16, .f32⟩
  | .hbm, ⟨37, _⟩ => ⟨S100000x16, .f32⟩
  | .hbm, ⟨38, _⟩ => ⟨S100000x16, .f32⟩
  | .hbm, ⟨39, _⟩ => ⟨S100000x16, .f32⟩
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x10 : S_.BroadcastsInDim S100000x10 (![] : Fin 0 → Fin S100000x10.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x10_S6400000x1_S6400000x10_1_0_n_n_0_1_110_wf : GatherDims.WF S100000x10 S6400000x1 S6400000x10 [1] [0] [] [0] [] 1 ![1, 10]
  scatter_S100000x10_S6400000x1_S6400000x10_1_0_0_1_wf : ScatterDims.WF S100000x10 S6400000x1 S6400000x10 [1] [0] [0] 1
  scatter_S100000_S6400000x1_S6400000_n_0_0_1_wf : ScatterDims.WF S100000 S6400000x1 S6400000 [] [0] [0] 1
  dot_S100000x10_S10x16_S100000x16_1_0_0_1_n_n_wf : DotDims.WF S100000x10 S10x16 S100000x16 [1] [0] [0] [1] [] []

variable [Facts₀]

def gather_S100000x10_S6400000x1_S6400000x10_1_0_n_n_0_1_110 : GatherDims S100000x10 S6400000x1 S6400000x10 where
  offsetDims := [1]
  collapsedSliceDims := [0]
  operandBatchingDims := []
  startIndicesBatchingDims := []
  startIndexMap := [0]
  indexVectorDim := 1
  sliceSizes := ![1, 10]
  wf := gather_S100000x10_S6400000x1_S6400000x10_1_0_n_n_0_1_110_wf
def scatter_S100000x10_S6400000x1_S6400000x10_1_0_0_1 : ScatterDims S100000x10 S6400000x1 S6400000x10 where
  updateWindowDims := [1]
  insertedWindowDims := [0]
  scatterDimsToOperandDims := [0]
  indexVectorDim := 1
  wf := scatter_S100000x10_S6400000x1_S6400000x10_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x10_S10x16_S100000x16_1_0_0_1_n_n : DotDims S100000x10 S10x16 S100000x16 where
  lhsContracting := [1]
  rhsContracting := [0]
  lhsNonContracting := [0]
  rhsNonContracting := [1]
  lhsBatch := []
  rhsBatch := []
  wf := dot_S100000x10_S10x16_S100000x16_1_0_0_1_n_n_wf

class Facts : Prop extends Facts₀ where

variable [Facts]
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Payload.lean ====
/-
  What the kernel body stores, entry by entry.

  The body reads a [10, 12544] block s of summed neighbour features (features down the rows, nodes along the
  columns), a [1, 12544] row cnt of edge counts, a [10, 12544] block xT of the nodes' own features, the two [16, 10]
  transposed weight matrices wl and wr and a [16, 1] bias column bl, and stores the [16, 12544] block

      wl · (s / max(cnt, 1))  +  wr · xT  +  bl

  (the two products are contractions over the ten features into a zero accumulator; a change of float format is
  the identity on the extended reals). At (h, j) that is
  (Σ_k wl(h, k) · (s(k, j) / max(cnt(0, j), 1)) + Σ_k wr(h, k) · xT(k, j)) + bl(h, 0).
-/
import proofs.«144030_j39032662786373_2_alg».proof.Proof.Gen.KernelIdeal.Skeleton
import proofs.«144030_j39032662786373_2_alg».proof.Proof.LibMatmulAt
import proofs.«144030_j39032662786373_2_alg».proof.Proof.LibColumn
import Idealize.ShloMosaic.Lib.Pipeline.Value
import Idealize.ShloMosaic.Lib.ValueIdx
import Idealize.ShloMosaic.Lib.ValueLayout

noncomputable section

open scoped BigOperators

namespace Cert.KernelIdeal.Body

open Cert.KernelIdeal Cert.KernelIdeal.Gen Idealize.ShloMosaic Idealize.ShloMosaic.ValueIdx

/-- The block of mean neighbour features: each summed feature over its node's count floored at one. -/
def meanBlk (v0 : Vec Ideal S1x12544 .f32) (v2 : Vec Ideal S10x12544 .f32) : FVec Ideal S10x12544 .f32 :=
  divf (shapeCast S10x12544 v2 shapeCasts_S10x12544_S10x12544)
    (broadcastTo S10x12544
      (maximumf (shapeCast S1x12544 v0 shapeCasts_S1x12544_S1x12544)
        (broadcast S1x12544 (Scalar.ofBits (F := Ideal) .f32 0x3F800000#32)))
      broadcasts_S1x12544_S10x12544)

/-- Feature k of node j of the mean block. -/
theorem meanBlk_apply (v0 : Vec Ideal S1x12544 .f32) (v2 : Vec Ideal S10x12544 .f32) (k : Fin 10) (j : Fin 12544) :
    meanBlk v0 v2 (ix2 k j)
      = Ideal.div (v2 (ix2 k j)) (max (v0 (ix2 (0 : Fin 1) j)) (Ideal.ofBits .f32 0x3F800000#32)) := by
  unfold meanBlk
  rw [divf_apply, shapeCast_self, broadcastTo_1b_ab_apply, maximumf_apply, shapeCast_self]
  rfl

/-- The stored value is the sum of the two products and the stretched bias column. -/
theorem pay_eq (v0 : Vec Ideal S1x12544 .f32) (v2 v9 : Vec Ideal S10x12544 .f32) (v12 v15 : Vec Ideal S16x10 .f32)
    (v21 : Vec Ideal S16x1 .f32) :
    k0_pay1 (F := Ideal) v0 v2 v9 v12 v15 v21
      = addf
          (addf
            (matmul dot_S16x10_S10x12544_S16x12544_1_0_0_1_n_n none
              (truncf .bf16 (shapeCast S16x10 v12 shapeCasts_S16x10_S16x10) bitsLt_bf16_f32)
              (truncf .bf16 (meanBlk v0 v2) bitsLt_bf16_f32) (constant S16x12544 .f32 0x00000000#32))
            (matmul dot_S16x10_S10x12544_S16x12544_1_0_0_1_n_n none
              (truncf .bf16 (shapeCast S16x10 v15 shapeCasts_S16x10_S16x10) bitsLt_bf16_f32)
              (truncf .bf16 (shapeCast S10x12544 v9 shapeCasts_S10x12544_S10x12544) bitsLt_bf16_f32)
              (constant S16x12544 .f32 0x00000000#32)))
          (broadcastTo S16x12544 (shapeCast S16x1 v21 shapeCasts_S16x1_S16x1) broadcasts_S16x1_S16x12544) := rfl

/-- The stored block at output feature h of node j. -/
theorem pay_apply (v0 : Vec Ideal S1x12544 .f32) (v2 v9 : Vec Ideal S10x12544 .f32) (v12 v15 : Vec Ideal S16x10 .f32)
    (v21 : Vec Ideal S16x1 .f32) (h : Fin 16) (j : Fin 12544) :
    k0_pay1 (F := Ideal) v0 v2 v9 v12 v15 v21 (ix2 h j)
      = ((∑ k : Fin 10, v12 (ix2 h k)
            * Ideal.div (v2 (ix2 k j)) (max (v0 (ix2 (0 : Fin 1) j)) (Ideal.ofBits .f32 0x3F800000#32)))
          + ∑ k : Fin 10, v15 (ix2 h k) * v9 (ix2 k j))
        + v21 (ix2 h (0 : Fin 1)) := by
  rw [pay_eq, addf_apply, addf_apply]
  refine congrArg₂ (· + ·) (congrArg₂ (· + ·) ?_ ?_) ?_
  · refine (Cert.LibMatmulAt.matmul_zero_apply dot_S16x10_S10x12544_S16x12544_1_0_0_1_n_n rfl rfl rfl rfl rfl rfl none
      _ _ h j).trans (Finset.sum_congr rfl fun k _ => ?_)
    rw [truncf_apply, truncf_apply, shapeCast_self, meanBlk_apply]
  · refine (Cert.LibMatmulAt.matmul_zero_apply dot_S16x10_S10x12544_S16x12544_1_0_0_1_n_n rfl rfl rfl rfl rfl rfl none
      _ _ h j).trans (Finset.sum_congr rfl fun k _ => ?_)
    rw [truncf_apply, truncf_apply, shapeCast_self, shapeCast_self]
  · rw [Cert.LibColumn.broadcastTo_a1_ab_apply, shapeCast_self]

end Cert.KernelIdeal.Body

end
-- ==== Proof.KernelTerms.lean ====
/-
  What the host computes before the kernel is launched, as functions of the program's arguments.

  From the node features x [100000, 10] and the edge list ei [2, 6400000] (row 0 the source of each edge, row 1 its
  target): the source features gathered edge by edge, a column of ones appended, and the [6400000, 11] rows
  scatter-added into a zero [100000, 11] array at the edges' targets (aug: columns 0..9 the summed neighbour
  features, column 10 the edge counts). The kernel is launched on the transposes of the first ten columns and of x,
  and on the count row, each padded along the node axis from 100000 to 100352 = 8 · 12544 columns, and on the
  transposed weight matrices and the bias as a column. These are the arrays the region finds.
-/
import proofs.«144030_j39032662786373_2_alg».proof.Proof.Gen.KernelIdeal
import Idealize.ShloMosaic.PureOps.Ideal
import Idealize.ShloMosaic.Lib.ValueIdx

noncomputable section

open scoped BigOperators

namespace Cert.KernelIdeal.Host

open Cert.KernelIdeal Cert.KernelIdeal.Gen Idealize.ShloMosaic Idealize.ShloMosaic.ValueIdx

/-- Row r of the edge list as a vector of 6400000 node numbers. -/
def srcVec (x1 : IVec S2x6400000 32) : IVec S6400000 32 :=
  shapeCast S6400000 (extractStridedSlice S1x6400000 ![0, 0] x1 slices_S2x6400000_S1x6400000_0_0)
    shapeCasts_S1x6400000_S6400000

/-- The edges' sources as a column, a negative number counted from the end. -/
def srcCol (x1 : IVec S2x6400000 32) : IVec S6400000x1 32 :=
  broadcastInDim S6400000x1 ![0] bcast_S6400000_S6400000x1_0
    (select (cmpi .slt (srcVec x1) (broadcastInDim S6400000 ![] bcast_S_S6400000 (constantI S_ 32 0#32)))
      (addi (srcVec x1) (broadcastInDim S6400000 ![] bcast_S_S6400000 (constantI S_ 32 100000#32))) (srcVec x1))

/-- The edges' targets as a column. -/
def dstCol (x1 : IVec S2x6400000 32) : IVec S6400000x1 32 :=
  broadcastInDim S6400000x1 ![0] bcast_S6400000_S6400000x1_0
    (shapeCast S6400000 (extractStridedSlice S1x6400000 ![1, 0] x1 slices_S2x6400000_S1x6400000_1_0)
      shapeCasts_S1x6400000_S6400000)

/-- The source node's features, edge by edge. -/
def msgs (x0 : FVec Ideal S100000x10 .f32) (x1 : IVec S2x6400000 32) : FVec Ideal S6400000x10 .f32 :=
  Host.gather gather_S100000x10_S6400000x1_S6400000x10_1_0_n_n_0_1_110 x0 (srcCol x1)

/-- The messages with a column of ones appended, scatter-added at the edges' targets into zeros. -/
def aug (x0 : FVec Ideal S100000x10 .f32) (x1 : IVec S2x6400000 32) : FVec Ideal S100000x11 .f32 :=
  Host.scatterAdd (F := Ideal) scatter_S100000x11_S6400000x1_S6400000x11_1_0_0_1
    (broadcastInDim S100000x11 ![] bcast_S_S100000x11 (constant (F := Ideal) S_ .f32 0x00000000#32))
    (dstCol x1)
    (concatenate S6400000x11 1
      [⟨S6400000x10, msgs x0 x1⟩,
        ⟨S6400000x1, broadcastInDim S6400000x1 ![] bcast_S_S6400000x1 (constant (F := Ideal) S_ .f32 0x3F800000#32)⟩]
      concatenates_S6400000x10_S6400000x1_S6400000x11_d1)

/-- The value the padding columns hold: the integer zero as a float. -/
def padVal : FVec Ideal S_ .f32 := sitofp (F := Ideal) .f32 (constantI S_ 32 0#32)

/-- Summed neighbour features, features down the rows, padded along the nodes. -/
def summedT (x0 : FVec Ideal S100000x10 .f32) (x1 : IVec S2x6400000 32) : FVec Ideal S10x100352 .f32 :=
  pad S10x100352 ![0, 0] ![0, 352] ![0, 0]
    (transpose S10x100000 [1, 0]
      (extractStridedSlice S100000x10 ![0, 0] (aug x0 x1) slices_S100000x11_S100000x10_0_0)
      transposes_S100000x10_S10x100000_1_0)
    padVal pads_S10x100000_S10x100352_000_03520 h_S_

/-- Edge counts as a row, padded along the nodes. -/
def cntRow (x0 : FVec Ideal S100000x10 .f32) (x1 : IVec S2x6400000 32) : FVec Ideal S1x100352 .f32 :=
  pad S1x100352 ![0, 0] ![0, 352] ![0, 0]
    (broadcastInDim S1x100000 ![1] bcast_S100000_S1x100000_1
      (shapeCast S100000 (extractStridedSlice S100000x1 ![0, 10] (aug x0 x1) slices_S100000x11_S100000x1_0_10)
        shapeCasts_S100000x1_S100000))
    padVal pads_S1x100000_S1x100352_000_03520 h_S_

/-- The nodes' own features, features down the rows, padded along the nodes. -/
def xT (x0 : FVec Ideal S100000x10 .f32) : FVec Ideal S10x100352 .f32 :=
  pad S10x100352 ![0, 0] ![0, 352] ![0, 0]
    (transpose S10x100000 [1, 0] x0 transposes_S100000x10_S10x100000_1_0)
    padVal pads_S10x100000_S10x100352_000_03520 h_S_

/-- A weight matrix transposed. -/
def wT (x2 : FVec Ideal S10x16 .f32) : FVec Ideal S16x10 .f32 :=
  transpose S16x10 [1, 0] x2 transposes_S10x16_S16x10_1_0

/-- The bias as a column. -/
def blCol (x3 : FVec Ideal S16 .f32) : FVec Ideal S16x1 .f32 :=
  broadcastInDim S16x1 ![0] bcast_S16_S16x1_0 x3

/-- The kernel's own summed neighbour features: the first ten columns of the scatter-add. -/
def kS (x0 : FVec Ideal S100000x10 .f32) (x1 : IVec S2x6400000 32) : FVec Ideal S100000x10 .f32 :=
  extractStridedSlice S100000x10 ![0, 0] (aug x0 x1) slices_S100000x11_S100000x10_0_0

/-- The kernel's own edge counts: the last column of the scatter-add, as a vector. -/
def kCn (x0 : FVec Ideal S100000x10 .f32) (x1 : IVec S2x6400000 32) : FVec Ideal S100000 .f32 :=
  shapeCast S100000 (extractStridedSlice S100000x1 ![0, 10] (aug x0 x1) slices_S100000x11_S100000x1_0_10)
    shapeCasts_S100000x1_S100000

/-- What the launched kernel leaves at output feature h of column J, from the six arrays it reads. -/
def outTAt (A0 : FVec Ideal S10x100352 .f32) (A1 : FVec Ideal S1x100352 .f32) (A2 : FVec Ideal S10x100352 .f32)
    (A3 : FVec Ideal S16x10 .f32) (A4 : FVec Ideal S16x1 .f32) (A5 : FVec Ideal S16x10 .f32) (h : Fin 16)
    (J : Fin 100352) : EReal :=
  ((∑ k : Fin 10, A3 (ix2 h k)
      * Ideal.div (A0 (ix2 k J)) (max (A1 (ix2 (0 : Fin 1) J)) (Ideal.ofBits .f32 0x3F800000#32)))
    + ∑ k : Fin 10, A5 (ix2 h k) * A2 (ix2 k J))
  + A4 (ix2 h (0 : Fin 1))

/-- The same as an array over [16, 100352]. -/
def outT (A0 : FVec Ideal S10x100352 .f32) (A1 : FVec Ideal S1x100352 .f32) (A2 : FVec Ideal S10x100352 .f32)
    (A3 : FVec Ideal S16x10 .f32) (A4 : FVec Ideal S16x1 .f32) (A5 : FVec Ideal S16x10 .f32) :
    FVec Ideal S16x100352 .f32 :=
  fun i => outTAt A0 A1 A2 A3 A4 A5 (i 0) (i 1)

end Cert.KernelIdeal.Host

end
-- ==== Proof.Blocks.lean ====
/-
  The array the kernel's output window ends holding.

  The grid has eight points; point t reads columns 12544·t … 12544·t + 12543 of the three node-indexed arrays (the
  summed features, the count row, the nodes' own features), the whole of the two weight matrices and of the bias
  column, and writes back columns 12544·t … of the [16, 100352] output. What it writes at (h, j) depends on column j of
  its inputs only, so the eight blocks are restrictions of ONE function of the six arrays: at (h, J),
  (Σ_k wl(h, k) · (s(k, J) / max(cnt(0, J), 1)) + Σ_k wr(h, k) · xT(k, J)) + bl(h, 0); and the eight blocks tile the
  output, so after the run the output array is that function.
-/
import proofs.«144030_j39032662786373_2_alg».proof.Proof.Gen.KernelIdeal.Frame
import proofs.«144030_j39032662786373_2_alg».proof.Proof.Payload
import proofs.«144030_j39032662786373_2_alg».proof.Proof.KernelTerms
import Idealize.ShloMosaic.Lib.Pipeline.Value
import Idealize.ShloMosaic.Lib.ValueIdx

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Cert.KernelIdeal.Host
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block index of every window at every point: the node-indexed windows move along the columns with the point,
    the weights and the bias stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- Point t's block of summed features is columns 12544·t … of the array. -/
theorem blk0 (c : Dev nD) (t : Fin cfg0.N) (x : S10x12544.Idx) (k : S10x100352.Idx)
    (hk0 : (k 0).val = (x 0).val) (hk1 : (k 1).val = t.val * 12544 + (x 1).val) :
    (iblk m c 0 t : Vec Ideal S10x12544 .f32) x = (V m c main_v20 : S10x100352.Idx → EReal) k := by
  obtain ⟨e0, e1, -⟩ := idx_facts t
  unfold iblk
  rw [View.read_apply]
  show V m c main_v20 _ = V m c main_v20 _
  congr 1
  funext a
  apply Fin.ext
  match a with
  | ⟨0, _⟩ => show win0_0.index t (0 : Fin 2) * 10 + 1 * (x 0).val = (k 0).val; rw [e0, hk0]; omega
  | ⟨1, _⟩ => show win0_0.index t (1 : Fin 2) * 12544 + 1 * (x 1).val = (k 1).val; rw [e1, hk1]; omega

/-- Point t's block of counts is columns 12544·t … of the count row. -/
theorem blk1 (c : Dev nD) (t : Fin cfg0.N) (x : S1x12544.Idx) (k : S1x100352.Idx)
    (hk0 : (k 0).val = (x 0).val) (hk1 : (k 1).val = t.val * 12544 + (x 1).val) :
    (iblk m c 1 t : Vec Ideal S1x12544 .f32) x = (V m c main_v24 : S1x100352.Idx → EReal) k := by
  obtain ⟨-, -, e0, e1, -⟩ := idx_facts t
  unfold iblk
  rw [View.read_apply]
  show V m c main_v24 _ = V m c main_v24 _
  congr 1
  funext a
  apply Fin.ext
  match a with
  | ⟨0, _⟩ => show win0_1.index t (0 : Fin 2) * 1 + 1 * (x 0).val = (k 0).val; rw [e0, hk0]; omega
  | ⟨1, _⟩ => show win0_1.index t (1 : Fin 2) * 12544 + 1 * (x 1).val = (k 1).val; rw [e1, hk1]; omega

/-- Point t's block of the nodes' own features is columns 12544·t … of the array. -/
theorem blk2 (c : Dev nD) (t : Fin cfg0.N) (x : S10x12544.Idx) (k : S10x100352.Idx)
    (hk0 : (k 0).val = (x 0).val) (hk1 : (k 1).val = t.val * 12544 + (x 1).val) :
    (iblk m c 2 t : Vec Ideal S10x12544 .f32) x = (V m c main_v22 : S10x100352.Idx → EReal) k := by
  obtain ⟨-, -, -, -, e0, e1, -⟩ := idx_facts t
  unfold iblk
  rw [View.read_apply]
  show V m c main_v22 _ = V m c main_v22 _
  congr 1
  funext a
  apply Fin.ext
  match a with
  | ⟨0, _⟩ => show win0_2.index t (0 : Fin 2) * 10 + 1 * (x 0).val = (k 0).val; rw [e0, hk0]; omega
  | ⟨1, _⟩ => show win0_2.index t (1 : Fin 2) * 12544 + 1 * (x 1).val = (k 1).val; rw [e1, hk1]; omega

/-- Every point's block of the neighbour weights is the whole matrix. -/
theorem blk3 (c : Dev nD) (t : Fin cfg0.N) (x : S16x10.Idx) :
    (iblk m c 3 t : Vec Ideal S16x10 .f32) x = (V m c main_v25 : S16x10.Idx → EReal) x := by
  obtain ⟨-, -, -, -, -, -, e0, e1, -⟩ := idx_facts t
  unfold iblk
  rw [View.read_apply]
  show V m c main_v25 _ = V m c main_v25 _
  congr 1
  funext a
  apply Fin.ext
  match a with
  | ⟨0, _⟩ => show win0_3.index t (0 : Fin 2) * 16 + 1 * (x 0).val = (x 0).val; rw [e0]; omega
  | ⟨1, _⟩ => show win0_3.index t (1 : Fin 2) * 10 + 1 * (x 1).val = (x 1).val; rw [e1]; omega

/-- Every point's block of the bias is the whole column. -/
theorem blk4 (c : Dev nD) (t : Fin cfg0.N) (x : S16x1.Idx) :
    (iblk m c 4 t : Vec Ideal S16x1 .f32) x = (V m c main_v27 : S16x1.Idx → EReal) x := by
  obtain ⟨-, -, -, -, -, -, -, -, e0, e1, -⟩ := idx_facts t
  unfold iblk
  rw [View.read_apply]
  show V m c main_v27 _ = V m c main_v27 _
  congr 1
  funext a
  apply Fin.ext
  match a with
  | ⟨0, _⟩ => show win0_4.index t (0 : Fin 2) * 16 + 1 * (x 0).val = (x 0).val; rw [e0]; omega
  | ⟨1, _⟩ => show win0_4.index t (1 : Fin 2) * 1 + 1 * (x 1).val = (x 1).val; rw [e1]; omega

/-- Every point's block of the root weights is the whole matrix. -/
theorem blk5 (c : Dev nD) (t : Fin cfg0.N) (x : S16x10.Idx) :
    (iblk m c 5 t : Vec Ideal S16x10 .f32) x = (V m c main_v26 : S16x10.Idx → EReal) x := by
  obtain ⟨-, -, -, -, -, -, -, -, -, -, e0, e1, -⟩ := idx_facts t
  unfold iblk
  rw [View.read_apply]
  show V m c main_v26 _ = V m c main_v26 _
  congr 1
  funext a
  apply Fin.ext
  match a with
  | ⟨0, _⟩ => show win0_5.index t (0 : Fin 2) * 16 + 1 * (x 0).val = (x 0).val; rw [e0]; omega
  | ⟨1, _⟩ => show win0_5.index t (1 : Fin 2) * 10 + 1 * (x 1).val = (x 1).val; rw [e1]; omega

/-- What the body stores at (h, q) of its block, from the six arrays: column 12544·t + q of the one function. -/
theorem stored_at (c : Dev nD) (t : Fin cfg0.N) (h : Fin 16) (q : Fin 12544) (J : Fin 100352)
    (hJ : J.val = t.val * 12544 + q.val) :
    k0_pay1 (F := Ideal) (iblk m c 1 t) (iblk m c 0 t) (iblk m c 2 t) (iblk m c 3 t) (iblk m c 5 t) (iblk m c 4 t)
        (ix2 h q)
      = outT (V m c main_v20) (V m c main_v24) (V m c main_v22) (V m c main_v25) (V m c main_v27) (V m c main_v26)
          (ix2 h J) := by
  refine (Cert.KernelIdeal.Body.pay_apply (iblk m c 1 t) (iblk m c 0 t) (iblk m c 2 t) (iblk m c 3 t) (iblk m c 5 t)
    (iblk m c 4 t) h q).trans ?_
  show _ = outTAt _ _ _ _ _ _ h J
  unfold outTAt
  refine congrArg₂ (· + ·) (congrArg₂ (· + ·) (Finset.sum_congr rfl fun k _ => ?_) (Finset.sum_congr rfl fun k _ => ?_)) ?_
  · rw [blk3 m c t (ix2 h k), blk0 m c t (ix2 k q) (ix2 k J) rfl hJ,
      blk1 m c t (ix2 (0 : Fin 1) q) (ix2 (0 : Fin 1) J) rfl hJ]
  · rw [blk5 m c t (ix2 h k), blk2 m c t (ix2 k q) (ix2 k J) rfl hJ]
  · rw [blk4 m c t (ix2 h (0 : Fin 1))]

/-- The same at any index j of the block and the array index i it sits at: same row, column 12544·t further. -/
theorem stored_at_idx (c : Dev nD) (t : Fin cfg0.N) (j : S16x12544.Idx) (i : S16x100352.Idx)
    (h0 : (i 0).val = (j 0).val) (h1 : (i 1).val = t.val * 12544 + (j 1).val) :
    k0_pay1 (F := Ideal) (iblk m c 1 t) (iblk m c 0 t) (iblk m c 2 t) (iblk m c 3 t) (iblk m c 5 t) (iblk m c 4 t) j
      = outT (V m c main_v20) (V m c main_v24) (V m c main_v22) (V m c main_v25) (V m c main_v27) (V m c main_v26) i := by
  obtain ⟨h, q, rfl⟩ : ∃ (h : Fin 16) (q : Fin 12544), j = ix2 h q := ⟨j 0, j 1, eq_ix2 j⟩
  obtain ⟨h', J, rfl⟩ : ∃ (h' : Fin 16) (J : Fin 100352), i = ix2 h' J := ⟨i 0, i 1, eq_ix2 i⟩
  obtain rfl : h' = h := Fin.ext h0
  exact stored_at m c t h' q J h1

/-- WHAT POINT t WRITES BACK is block t of the one function of the six arrays. -/
theorem flushed_eq (c : Dev nD) (t : Fin cfg0.N) :
    (dats m 0 c).flushed 6 t = ((cfg0.win 6).blk t).view.read (Elt Ideal)
      (outT (V m c main_v20) (V m c main_v24) (V m c main_v22) (V m c main_v25) (V m c main_v27) (V m c main_v26)) := by
  show (cfg0.win 6).cut (grid0.coords t) ((dats m 0 c).after 6 t) = _
  rw [after0_6]
  unfold out0_6
  rw [View.canon_unit_zero hz]
  simp only [View.ld_unit_zero (S := S1x12544) hz, View.ld_unit_zero (S := S10x12544) hz,
    View.ld_unit_zero (S := S16x10) hz, View.ld_unit_zero (S := S16x1) hz]
  obtain ⟨-, -, -, -, -, -, -, -, -, -, -, -, e0, e1⟩ := idx_facts t
  funext j
  show k0_pay1 (F := Ideal) (iblk m c 1 t) (iblk m c 0 t) (iblk m c 2 t) (iblk m c 3 t) (iblk m c 5 t) (iblk m c 4 t) j
    = outT (V m c main_v20) (V m c main_v24) (V m c main_v22) (V m c main_v25) (V m c main_v27) (V m c main_v26)
        (((cfg0.win 6).blk t).view.emb j)
  refine stored_at_idx m c t j _ ?_ ?_
  · show win0_6.index t (0 : Fin 2) * 16 + 1 * (j 0).val = (j 0).val
    rw [e0]; omega
  · show win0_6.index t (1 : Fin 2) * 12544 + 1 * (j 1).val = t.val * 12544 + (j 1).val
    rw [e1]; omega

/-- An index of the output array is in point t's block iff each coordinate is in the block's range on its axis. -/
theorem mem_blk (t : Fin cfg0.N) (i : S16x100352.Idx) :
    i ∈ ((cfg0.win 6).blk t).view.set ↔ ∀ a : Fin 2, win0_6.index t a * S16x12544.size a ≤ (i a).val
      ∧ (i a).val < win0_6.index t a * S16x12544.size a + S16x12544.size a := by
  show i ∈ ((View.whole main_v28).slice (win0_6.rect t)).set ↔ _
  rw [View.set_slice_whole, Rect.mem_set_unit]
  exact Iff.rfl

/-- Column J of the output is in the block of point J / 12544: the eight blocks tile the array. -/
theorem cover (i : S16x100352.Idx) :
    ∃ t : Fin cfg0.N, (cfg0.win 6).flush t = true ∧ i ∈ ((cfg0.win 6).blk t).view.set := by
  have hi0 : (i 0).val < 16 := (i 0).isLt
  have hi1 : (i 1).val < 100352 := (i 1).isLt
  have hN : grid0.N = 8 := N_0
  have ht : (i 1).val / 12544 < grid0.N := by rw [hN]; omega
  obtain ⟨-, -, -, -, -, -, -, -, -, -, -, -, e0, e1⟩ := idx_facts ⟨(i 1).val / 12544, ht⟩
  refine ⟨⟨(i 1).val / 12544, ht⟩, flush0_6 _, ?_⟩
  rw [mem_blk]
  intro a
  match a with
  | ⟨0, _⟩ =>
    show win0_6.index ⟨(i 1).val / 12544, ht⟩ (0 : Fin 2) * 16 ≤ (i 0).val
      ∧ (i 0).val < win0_6.index ⟨(i 1).val / 12544, ht⟩ (0 : Fin 2) * 16 + 16
    rw [e0]; omega
  | ⟨1, _⟩ =>
    show win0_6.index ⟨(i 1).val / 12544, ht⟩ (1 : Fin 2) * 12544 ≤ (i 1).val
      ∧ (i 1).val < win0_6.index ⟨(i 1).val / 12544, ht⟩ (1 : Fin 2) * 12544 + 12544
    rw [e1]
    show (i 1).val / 12544 * 12544 ≤ (i 1).val ∧ (i 1).val < (i 1).val / 12544 * 12544 + 12544
    omega

/-- THE OUTPUT ARRAY after the run is the one function of the six arrays the region found. -/
theorem final (c : Dev nD) : (dats m 0 c).arrAt 6 cfg0.N
    = outT (V m c main_v20) (V m c main_v24) (V m c main_v22) (V m c main_v25) (V m c main_v27) (V m c main_v26) :=
  (dats m 0 c).arrAt_eq_of_cover 6 _ (fun t _ => flushed_eq m c t) cover

end Cert.KernelIdeal.Arr

end
-- ==== Proof.KernelEntry.lean ====
/-
  The six arrays the region finds, as the host operations before it leave them.

  The host lines before the kernel's launch are straight-line: each buffer the region reads is one fixed composition
  of those lines applied to the program's arguments. Folding the lines over the launch memory and reading each of the
  six buffers gives exactly the functions of KernelTerms.lean.
-/
import proofs.«144030_j39032662786373_2_alg».proof.Proof.Gen.KernelIdeal.Frame
import proofs.«144030_j39032662786373_2_alg».proof.Proof.KernelTerms
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

/-- The type of an accumulating scatter of [6400000, 11] rows into a [100000, 11] array. -/
abbrev Scat : Type :=
  FVec Ideal S100000x11 .f32 → IVec S6400000x1 32 → FVec Ideal S6400000x11 .f32 → FVec Ideal S100000x11 .f32

/-- The type of laying a [6400000, 10] and a [6400000, 1] array side by side. -/
abbrev Cat : Type :=
  FVec Ideal S6400000x10 .f32 → FVec Ideal S6400000x1 .f32 → FVec Ideal S6400000x11 .f32

/-- The program's accumulating scatter. -/
def scat : Scat :=
  fun x i u => Host.scatterAdd (F := Ideal) scatter_S100000x11_S6400000x1_S6400000x11_1_0_0_1 x i u

/-- The program's side-by-side concatenation. -/
def catCols : Cat :=
  fun a b => concatenate S6400000x11 1 [⟨S6400000x10, a⟩, ⟨S6400000x1, b⟩]
    concatenates_S6400000x10_S6400000x1_S6400000x11_d1

/-- The scatter-added augmented messages, the scatter and the concatenation parameters: everything around them only
    moves entries. -/
def augWith (sc : Scat) (cat : Cat) (x0 : FVec Ideal S100000x10 .f32) (x1 : IVec S2x6400000 32) :
    FVec Ideal S100000x11 .f32 :=
  sc (broadcastInDim S100000x11 ![] bcast_S_S100000x11 (constant (F := Ideal) S_ .f32 0x00000000#32)) (dstCol x1)
    (cat (msgs x0 x1)
      (broadcastInDim S6400000x1 ![] bcast_S_S6400000x1 (constant (F := Ideal) S_ .f32 0x3F800000#32)))

/-- The padded transposed summed features over such a scatter and concatenation. -/
def summedTWith (sc : Scat) (cat : Cat) (x0 : FVec Ideal S100000x10 .f32) (x1 : IVec S2x6400000 32) :
    FVec Ideal S10x100352 .f32 :=
  pad S10x100352 ![0, 0] ![0, 352] ![0, 0]
    (transpose S10x100000 [1, 0]
      (extractStridedSlice S100000x10 ![0, 0] (augWith sc cat x0 x1) slices_S100000x11_S100000x10_0_0)
      transposes_S100000x10_S10x100000_1_0)
    padVal pads_S10x100000_S10x100352_000_03520 h_S_

/-- The padded count row over such a scatter and concatenation. -/
def cntRowWith (sc : Scat) (cat : Cat) (x0 : FVec Ideal S100000x10 .f32) (x1 : IVec S2x6400000 32) :
    FVec Ideal S1x100352 .f32 :=
  pad S1x100352 ![0, 0] ![0, 352] ![0, 0]
    (broadcastInDim S1x100000 ![1] bcast_S100000_S1x100000_1
      (shapeCast S100000
        (extractStridedSlice S100000x1 ![0, 10] (augWith sc cat x0 x1) slices_S100000x11_S100000x1_0_10)
        shapeCasts_S100000x1_S100000))
    padVal pads_S1x100000_S1x100352_000_03520 h_S_

theorem summedT_with (x0 : FVec Ideal S100000x10 .f32) (x1 : IVec S2x6400000 32) :
    summedT x0 x1 = summedTWith scat catCols x0 x1 := rfl

theorem cntRow_with (x0 : FVec Ideal S100000x10 .f32) (x1 : IVec S2x6400000 32) :
    cntRow x0 x1 = cntRowWith scat catCols x0 x1 := rfl

variable (m : (ℓ : Loc nD τ sig) → Buf (Elt Ideal) ℓ)

set_option maxHeartbeats 400000 in
/-- The region finds the padded transposed summed features in its first window's array. -/
theorem V_summedT (c : Dev nD) : (V m c main_v20 : S10x100352.Idx → EReal)
    = summedT (m ((c : Thread nD τ).loc main_arg0)) (m ((c : Thread nD τ).loc main_arg1)) := by
  rw [summedT_with]
  unfold summedTWith augWith msgs srcCol srcVec dstCol padVal
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  rw [show (fun (x : FVec Ideal S100000x11 .f32) (i : IVec S6400000x1 32) (u : FVec Ideal S6400000x11 .f32) =>
    Host.scatterAdd (F := Ideal) scatter_S100000x11_S6400000x1_S6400000x11_1_0_0_1 x i u) = scat from rfl,
    show (fun (a : FVec Ideal S6400000x10 .f32) (b : FVec Ideal S6400000x1 .f32) =>
      concatenate S6400000x11 1 [⟨S6400000x10, a⟩, ⟨S6400000x1, b⟩]
        concatenates_S6400000x10_S6400000x1_S6400000x11_d1) = catCols from rfl]
  generalize scat = sc
  generalize catCols = cat
  after_results_simp
  dsimp only [TRef.ofBuf, TRef.toBuf]
  refine Eq.trans (cast_eq _ _) ?_
  refine congrArg₂ (fun (x : FVec Ideal S10x100000 .f32) (v : FVec Ideal S_ .f32) =>
    pad S10x100352 ![0, 0] ![0, 352] ![0, 0] x v pads_S10x100000_S10x100352_000_03520 h_S_) ?_ ?_
  · exact Eq.trans (cast_eq _ _) rfl
  · exact (cast_eq _ _).trans ((cast_eq _ _).trans (congrArg (sitofp (F := Ideal) .f32) (cast_eq _ _)))

set_option maxHeartbeats 400000 in
/-- The padded count row in its second. -/
theorem V_cntRow (c : Dev nD) : (V m c main_v24 : S1x100352.Idx → EReal)
    = cntRow (m ((c : Thread nD τ).loc main_arg0)) (m ((c : Thread nD τ).loc main_arg1)) := by
  rw [cntRow_with]
  unfold cntRowWith augWith msgs srcCol srcVec dstCol padVal
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  rw [show (fun (x : FVec Ideal S100000x11 .f32) (i : IVec S6400000x1 32) (u : FVec Ideal S6400000x11 .f32) =>
    Host.scatterAdd (F := Ideal) scatter_S100000x11_S6400000x1_S6400000x11_1_0_0_1 x i u) = scat from rfl,
    show (fun (a : FVec Ideal S6400000x10 .f32) (b : FVec Ideal S6400000x1 .f32) =>
      concatenate S6400000x11 1 [⟨S6400000x10, a⟩, ⟨S6400000x1, b⟩]
        concatenates_S6400000x10_S6400000x1_S6400000x11_d1) = catCols from rfl]
  generalize scat = sc
  generalize catCols = cat
  after_results_simp
  dsimp only [TRef.ofBuf, TRef.toBuf]
  refine Eq.trans (cast_eq _ _) ?_
  refine congrArg₂ (fun (x : FVec Ideal S1x100000 .f32) (v : FVec Ideal S_ .f32) =>
    pad S1x100352 ![0, 0] ![0, 352] ![0, 0] x v pads_S1x100000_S1x100352_000_03520 h_S_) ?_ ?_
  · exact Eq.trans (cast_eq _ _) rfl
  · exact (cast_eq _ _).trans ((cast_eq _ _).trans (congrArg (sitofp (F := Ideal) .f32) (cast_eq _ _)))

/-- The padded transposed features in its third. -/
theorem V_xT (c : Dev nD) : (V m c main_v22 : S10x100352.Idx → EReal) = xT (m ((c : Thread nD τ).loc main_arg0)) := by
  unfold xT padVal
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results <;> rfl

/-- The transposed neighbour weights in its fourth. -/
theorem V_wlT (c : Dev nD) : (V m c main_v25 : S16x10.Idx → EReal) = wT (m ((c : Thread nD τ).loc main_arg2)) := by
  unfold wT
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results <;> rfl

/-- The bias column in its fifth. -/
theorem V_blCol (c : Dev nD) : (V m c main_v27 : S16x1.Idx → EReal) = blCol (m ((c : Thread nD τ).loc main_arg3)) := by
  unfold blCol
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results <;> rfl

/-- The transposed root weights in its sixth. -/
theorem V_wrT (c : Dev nD) : (V m c main_v26 : S16x10.Idx → EReal) = wT (m ((c : Thread nD τ).loc main_arg4)) := by
  unfold wT
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results <;> rfl

end Cert.KernelIdeal.Host

end
-- ==== Proof.Spec.lean ====
/-
  A mean-aggregation graph convolution, entry by entry.

  Node i has features x(i, ·), a row S(i, ·) holding the sum of its in-neighbours' features, and a count Cn(i) of its
  incoming edges. Its mean neighbour feature is S(i, k) / max(Cn(i), 1), and the layer's output at (i, h) is

      (Σ_k mean(i, k) · Wl(k, h)  +  b(h))  +  Σ_k x(i, k) · Wr(k, h)

  on the extended reals. A program that multiplies from the other side and adds the bias last computes
  (Σ_k Wl(k, h) · mean(i, k) + Σ_k Wr(k, h) · x(i, k)) + b(h): the same number, because products commute and sums
  may be regrouped and reordered on the extended reals — no entry has to be finite for that.
-/
import Idealize.ShloMosaic.PureOps.Ideal
import Idealize.ShloMosaic.Lib.ValueIdx

noncomputable section

open scoped BigOperators

namespace Cert.Sage

open Idealize.ShloMosaic Idealize.ShloMosaic.ValueIdx

/-- The mean neighbour feature k of node i: the summed feature over the edge count, the count floored at one. -/
def mean (S : FVec Ideal ⟨2, ![100000, 10]⟩ .f32) (Cn : FVec Ideal ⟨1, ![100000]⟩ .f32) (i : Fin 100000) (k : Fin 10) :
    EReal :=
  Ideal.div (S (ix2 i k)) (max (Cn (ix1 i)) (Ideal.ofBits .f32 0x3F800000#32))

/-- The layer's output at (i, h), in the order mean·Wl, plus bias, plus x·Wr. -/
def layerAt (S : FVec Ideal ⟨2, ![100000, 10]⟩ .f32) (Cn : FVec Ideal ⟨1, ![100000]⟩ .f32)
    (x : FVec Ideal ⟨2, ![100000, 10]⟩ .f32) (Wl : FVec Ideal ⟨2, ![10, 16]⟩ .f32) (b : FVec Ideal ⟨1, ![16]⟩ .f32)
    (Wr : FVec Ideal ⟨2, ![10, 16]⟩ .f32) (i : Fin 100000) (h : Fin 16) : EReal :=
  ((∑ k : Fin 10, mean S Cn i k * Wl (ix2 k h)) + b (ix1 h)) + ∑ k : Fin 10, x (ix2 i k) * Wr (ix2 k h)

/-- The layer as an array over [100000, 16]. -/
def layer (S : FVec Ideal ⟨2, ![100000, 10]⟩ .f32) (Cn : FVec Ideal ⟨1, ![100000]⟩ .f32)
    (x : FVec Ideal ⟨2, ![100000, 10]⟩ .f32) (Wl : FVec Ideal ⟨2, ![10, 16]⟩ .f32) (b : FVec Ideal ⟨1, ![16]⟩ .f32)
    (Wr : FVec Ideal ⟨2, ![10, 16]⟩ .f32) : FVec Ideal ⟨2, ![100000, 16]⟩ .f32 :=
  fun j => layerAt S Cn x Wl b Wr (j 0) (j 1)

/-- Weights on the left, the two products added first and the bias last: the same entry. -/
theorem weights_left (S : FVec Ideal ⟨2, ![100000, 10]⟩ .f32) (Cn : FVec Ideal ⟨1, ![100000]⟩ .f32)
    (x : FVec Ideal ⟨2, ![100000, 10]⟩ .f32) (Wl : FVec Ideal ⟨2, ![10, 16]⟩ .f32) (b : FVec Ideal ⟨1, ![16]⟩ .f32)
    (Wr : FVec Ideal ⟨2, ![10, 16]⟩ .f32) (i : Fin 100000) (h : Fin 16) :
    ((∑ k : Fin 10, Wl (ix2 k h) * mean S Cn i k) + ∑ k : Fin 10, Wr (ix2 k h) * x (ix2 i k)) + b (ix1 h)
      = layerAt S Cn x Wl b Wr i h := by
  unfold layerAt
  rw [Finset.sum_congr rfl (fun k _ => mul_comm (Wl (ix2 k h)) (mean S Cn i k)),
    Finset.sum_congr rfl (fun k _ => mul_comm (Wr (ix2 k h)) (x (ix2 i k)))]
  exact add_right_comm _ _ _

end Cert.Sage

end
-- ==== Proof.KernelRead.lean ====
/-
  The arrays the kernel is launched on, read at an entry, and what the launched kernel leaves there.

  For a node i < 100000, column i of the padded transposed arrays is row i of the unpadded ones: the padded summed
  features at (k, i) are the summed feature k of node i, the padded count row at (0, i) is node i's count, the padded
  transposed features at (k, i) are x(i, k); a transposed weight matrix at (h, k) is the matrix at (k, h), the bias
  column at (h, 0) is b(h). So column i of the kernel's output is
  (Σ_k Wl(k, h) · mean(i, k) + Σ_k Wr(k, h) · x(i, k)) + b(h) over the kernel's own summed features and counts: the
  layer of Spec.lean at (i, h), by the commutation proved there.
-/
import proofs.«144030_j39032662786373_2_alg».proof.Proof.KernelTerms
import proofs.«144030_j39032662786373_2_alg».proof.Proof.Spec
import proofs.«144030_j39032662786373_2_alg».proof.Proof.LibColumn
import Idealize.ShloMosaic.Lib.KernelVsHost
import Idealize.ShloMosaic.Lib.ValueLayout
import Idealize.ShloMosaic.Lib.Pipeline.Value

noncomputable section

open scoped BigOperators

namespace Cert.KernelIdeal.Host

open Cert.KernelIdeal Cert.KernelIdeal.Gen Idealize.ShloMosaic Idealize.ShloMosaic.ValueIdx

/-- Column i < 100000 of the padded transposed summed features is row i of the summed features. -/
theorem summedT_apply (x0 : FVec Ideal S100000x10 .f32) (x1 : IVec S2x6400000 32) (k : Fin 10) (J : Fin 100352)
    (i : Fin 100000) (hJ : J.val = i.val) : summedT x0 x1 (ix2 k J) = kS x0 x1 (ix2 i k) := by
  unfold summedT
  refine (pad_apply_of_inside ![0, 0] ![0, 352] ![0, 0] _ padVal pads_S10x100000_S10x100352_000_03520 h_S_
    (ix2 k J) (ix2 k i) (fun a => ?_)).trans ?_
  · match a with
    | ⟨0, _⟩ => show k.val = 0 + k.val * (0 + 1); omega
    | ⟨1, _⟩ => show J.val = 0 + i.val * (0 + 1); omega
  · exact transpose_ix2_apply _ _ k i

/-- Column i < 100000 of the padded count row is node i's count. -/
theorem cntRow_apply (x0 : FVec Ideal S100000x10 .f32) (x1 : IVec S2x6400000 32) (J : Fin 100352) (i : Fin 100000)
    (hJ : J.val = i.val) : cntRow x0 x1 (ix2 (0 : Fin 1) J) = kCn x0 x1 (ix1 i) := by
  unfold cntRow
  refine (pad_apply_of_inside ![0, 0] ![0, 352] ![0, 0] _ padVal pads_S1x100000_S1x100352_000_03520 h_S_
    (ix2 (0 : Fin 1) J) (ix2 (0 : Fin 1) i) (fun a => ?_)).trans ?_
  · match a with
    | ⟨0, _⟩ => show (0 : Fin 1).val = 0 + (0 : Fin 1).val * (0 + 1); rfl
    | ⟨1, _⟩ => show J.val = 0 + i.val * (0 + 1); omega
  · exact Cert.LibColumn.bcastInDim_b_1b_apply _ _ (0 : Fin 1) i

/-- Column i < 100000 of the padded transposed features is row i of the features. -/
theorem xT_apply (x0 : FVec Ideal S100000x10 .f32) (k : Fin 10) (J : Fin 100352) (i : Fin 100000)
    (hJ : J.val = i.val) : xT x0 (ix2 k J) = x0 (ix2 i k) := by
  unfold xT
  refine (pad_apply_of_inside ![0, 0] ![0, 352] ![0, 0] _ padVal pads_S10x100000_S10x100352_000_03520 h_S_
    (ix2 k J) (ix2 k i) (fun a => ?_)).trans ?_
  · match a with
    | ⟨0, _⟩ => show k.val = 0 + k.val * (0 + 1); omega
    | ⟨1, _⟩ => show J.val = 0 + i.val * (0 + 1); omega
  · exact transpose_ix2_apply _ _ k i

/-- A transposed weight matrix at (h, k) is the matrix at (k, h). -/
theorem wT_apply (x2 : FVec Ideal S10x16 .f32) (h : Fin 16) (k : Fin 10) : wT x2 (ix2 h k) = x2 (ix2 k h) :=
  transpose_ix2_apply _ _ h k

/-- The bias column at (h, 0) is the bias at h. -/
theorem blCol_apply (x3 : FVec Ideal S16 .f32) (h : Fin 16) : blCol x3 (ix2 h (0 : Fin 1)) = x3 (ix1 h) :=
  Cert.LibColumn.bcastInDim_a_a1_apply _ _ h (0 : Fin 1)

/-- Column i < 100000 of what the kernel leaves is the layer at node i over the kernel's own sums and counts. -/
theorem outT_layer (x0 : FVec Ideal S100000x10 .f32) (x1 : IVec S2x6400000 32) (x2 : FVec Ideal S10x16 .f32)
    (x3 : FVec Ideal S16 .f32) (x4 : FVec Ideal S10x16 .f32) (i : Fin 100000) (h : Fin 16) (J : Fin 100352)
    (hJ : J.val = i.val) :
    outTAt (summedT x0 x1) (cntRow x0 x1) (xT x0) (wT x2) (blCol x3) (wT x4) h J
      = Cert.Sage.layerAt (kS x0 x1) (kCn x0 x1) x0 x2 x3 x4 i h := by
  refine Eq.trans ?_ (Cert.Sage.weights_left (kS x0 x1) (kCn x0 x1) x0 x2 x3 x4 i h)
  unfold outTAt Cert.Sage.mean
  refine congrArg₂ (· + ·)
    (congrArg₂ (· + ·) (Finset.sum_congr rfl fun k _ => ?_) (Finset.sum_congr rfl fun k _ => ?_)) ?_
  · rw [wT_apply, summedT_apply x0 x1 k J i hJ, cntRow_apply x0 x1 J i hJ]
  · rw [wT_apply, xT_apply x0 k J i hJ]
  · exact blCol_apply x3 h

end Cert.KernelIdeal.Host

end
-- ==== Proof.KernelRun.lean ====
/-
  The kernel program's run, read: its result is the layer over its own summed features and counts.

  After the region the output array holds, at (h, J), the one function of the six arrays the region found
  (Blocks.lean); the two host lines after the region keep its first 100000 columns and transpose them, so the result at
  (i, h) is that function at (h, i); the six arrays are the padded transposed arrays of KernelTerms.lean
  (KernelEntry.lean), whose column i is row i of the unpadded ones, and so the result at (i, h) is the layer at (i, h)
  (KernelRead.lean).
-/
import proofs.«144030_j39032662786373_2_alg».proof.Proof.Gen.KernelIdeal.Frame
import proofs.«144030_j39032662786373_2_alg».proof.Proof.Blocks
import proofs.«144030_j39032662786373_2_alg».proof.Proof.KernelEntry
import proofs.«144030_j39032662786373_2_alg».proof.Proof.KernelRead
import Idealize.ShloMosaic.Lib.StableHlo.Run
import Idealize.ShloMosaic.Lib.ValueLayout

noncomputable section

namespace Cert.KernelIdeal.Res

open Cert.KernelIdeal Cert.KernelIdeal.Gen Cert.KernelIdeal.Host Cert.KernelIdeal.Arr
open Idealize.ShloMosaic Idealize.ShloMosaic.TcCoe Idealize.SL.Sem Idealize.ShloMosaic.ValueIdx
open Idealize.ShloMosaic.StableHlo

/-- The output function at (h, J), named. -/
theorem outT_apply (A0 : FVec Ideal S10x100352 .f32) (A1 : FVec Ideal S1x100352 .f32) (A2 : FVec Ideal S10x100352 .f32)
    (A3 : FVec Ideal S16x10 .f32) (A4 : FVec Ideal S16x1 .f32) (A5 : FVec Ideal S16x10 .f32) (h : Fin 16)
    (J : Fin 100352) : outT A0 A1 A2 A3 A4 A5 (ix2 h J) = outTAt A0 A1 A2 A3 A4 A5 h J := rfl

/-- The layer at (i, h), named. -/
theorem layer_apply (S : FVec Ideal ⟨2, ![100000, 10]⟩ .f32) (Cn : FVec Ideal ⟨1, ![100000]⟩ .f32)
    (x : FVec Ideal ⟨2, ![100000, 10]⟩ .f32) (Wl : FVec Ideal ⟨2, ![10, 16]⟩ .f32) (b : FVec Ideal ⟨1, ![16]⟩ .f32)
    (Wr : FVec Ideal ⟨2, ![10, 16]⟩ .f32) (i : Fin 100000) (h : Fin 16) :
    Cert.Sage.layer S Cn x Wl b Wr (ix2 i h) = Cert.Sage.layerAt S Cn x Wl b Wr i h := rfl

variable (m : (ℓ : Loc nD τ sig) → Buf (Elt Ideal) ℓ) (ρ : Dev nD → PrngReg)

/-- The result buffer after the two host lines that follow the region: the first 100000 columns of the region's
    output array, transposed. -/
theorem tail_eq (c : Dev nD) :
    (Pipeline.afterTail₀ cfgs (dats m) 0 (V0 m) [hostOps1] c main_v30 : S100000x16.Idx → EReal)
      = transpose S100000x16 [1, 0]
          (extractStridedSlice S16x100000 ![0, 0]
            (outT (V m c main_v20) (V m c main_v24) (V m c main_v22) (V m c main_v25) (V m c main_v27) (V m c main_v26))
            slices_S16x100352_S16x100000_0_0)
          transposes_S16x100000_S100000x16_1_0 := by
  unfold Pipeline.afterTail₀
  show StableHlo.after hostOps1 _ (Proc.devRef .tc main_v30) = _
  after_results
  rw [(Pipeline.withArrays_arr spec0 launch0.win.arr_inj c _ _ 6).trans (final m c)]

/-- The result at (i, h) is the layer there, over the kernel's own summed features and counts. -/
theorem result_apply (c : Dev nD) (i : Fin 100000) (h : Fin 16) :
    (Pipeline.afterTail₀ cfgs (dats m) 0 (V0 m) [hostOps1] c main_v30 : S100000x16.Idx → EReal) (ix2 i h)
      = Cert.Sage.layerAt
          (kS (m ((c : Thread nD τ).loc main_arg0)) (m ((c : Thread nD τ).loc main_arg1)))
          (kCn (m ((c : Thread nD τ).loc main_arg0)) (m ((c : Thread nD τ).loc main_arg1)))
          (m ((c : Thread nD τ).loc main_arg0)) (m ((c : Thread nD τ).loc main_arg2))
          (m ((c : Thread nD τ).loc main_arg3)) (m ((c : Thread nD τ).loc main_arg4)) i h := by
  rw [tail_eq, transpose_ix2_apply,
    slice2_axis1_apply 0 _ slices_S16x100352_S16x100000_0_0 h i (⟨i.val, by omega⟩ : Fin 100352) (by simp),
    outT_apply, V_summedT m c, V_cntRow m c, V_xT m c, V_wlT m c, V_blCol m c, V_wrT m c]
  exact outT_layer _ _ _ _ _ i h _ rfl

/-- The result array is the layer over the kernel's own summed features and counts. -/
theorem result_eq (c : Dev nD) :
    (Pipeline.afterTail₀ cfgs (dats m) 0 (V0 m) [hostOps1] c main_v30 : S100000x16.Idx → EReal)
      = Cert.Sage.layer
          (kS (m ((c : Thread nD τ).loc main_arg0)) (m ((c : Thread nD τ).loc main_arg1)))
          (kCn (m ((c : Thread nD τ).loc main_arg0)) (m ((c : Thread nD τ).loc main_arg1)))
          (m ((c : Thread nD τ).loc main_arg0)) (m ((c : Thread nD τ).loc main_arg2))
          (m ((c : Thread nD τ).loc main_arg3)) (m ((c : Thread nD τ).loc main_arg4)) := by
  funext j
  obtain ⟨i, h, rfl⟩ : ∃ (i : Fin 100000) (h : Fin 16), j = ix2 i h := ⟨j 0, j 1, eq_ix2 j⟩
  rw [result_apply, layer_apply]

/-- Every weakly fair execution of the kernel program terminates with the result buffer at the layer and the arguments
    as launched. -/
theorem run : θ_run defs (onTc (τ := τ) (main (F := Ideal))) ⟨m, fun _ => 0, ρ⟩ fun r => ∀ c : Dev nD,
      r.2.mem ((c : Thread nD τ).loc main_v30)
        = Cert.Sage.layer
            (kS (m ((c : Thread nD τ).loc main_arg0)) (m ((c : Thread nD τ).loc main_arg1)))
            (kCn (m ((c : Thread nD τ).loc main_arg0)) (m ((c : Thread nD τ).loc main_arg1)))
            (m ((c : Thread nD τ).loc main_arg0)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Res

end
-- ==== Proof.RefValue.lean ====
/-
  The reference computes the layer of Spec.lean from its own two scatter-adds.

  With S the [100000, 10] array of summed neighbour features and Cn the [100000] vector of edge counts that the
  reference's two scatter-adds produce, its result at (i, h) is
  (Σ_k (S(i, k) / max(Cn(i), 1)) · Wl(k, h) + b(h)) + Σ_k x(i, k) · Wr(k, h): the layer, in the order the
  specification writes it. Everything after the scatter-adds reads one entry of each operand, or is a sum over the
  ten features.
-/
import proofs.«144030_j39032662786373_2_alg».proof.Proof.Gen.ReferenceIdeal.Read
import proofs.«144030_j39032662786373_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's result is the layer over its summed features and its counts. -/
theorem result_eq_layer (x0 : (⟨S100000x10, .f32⟩ : BufTy).Contents (Elt Ideal))
    (x1 : (⟨S2x6400000, .i32⟩ : BufTy).Contents (Elt Ideal)) (x2 : (⟨S10x16, .f32⟩ : BufTy).Contents (Elt Ideal))
    (x3 : (⟨S16, .f32⟩ : BufTy).Contents (Elt Ideal)) (x4 : (⟨S10x16, .f32⟩ : BufTy).Contents (Elt Ideal)) :
    val_main_v28 (F := Ideal) x0 x1 x2 x3 x4
      = Cert.Sage.layer (val_main_v13 (F := Ideal) x0 x1) (val_main_v17 (F := Ideal) x1) x0 x2 x3 x4 := by
  funext j
  obtain ⟨i, h, rfl⟩ : ∃ (i : Fin 100000) (h : Fin 16), j = ix2 i h := ⟨j 0, j 1, eq_ix2 j⟩
  have hl : ∀ k : Fin 10, lidx_main_v23 (ix2 i h) k = ix2 i k := fun k =>
    funext fun a => Fin.ext (by match a with | ⟨0, _⟩ => rfl | ⟨1, _⟩ => rfl)
  have hr : ∀ k : Fin 10, ridx_main_v23 (ix2 i h) k = ix2 k h := fun k =>
    funext fun a => Fin.ext (by match a with | ⟨0, _⟩ => rfl | ⟨1, _⟩ => rfl)
  have hl' : ∀ k : Fin 10, lidx_main_v27 (ix2 i h) k = ix2 i k := fun k =>
    funext fun a => Fin.ext (by match a with | ⟨0, _⟩ => rfl | ⟨1, _⟩ => rfl)
  have hr' : ∀ k : Fin 10, ridx_main_v27 (ix2 i h) k = ix2 k h := fun k =>
    funext fun a => Fin.ext (by match a with | ⟨0, _⟩ => rfl | ⟨1, _⟩ => rfl)
  have hb : idx_main_v24 (idx_main_v25 (ix2 i h)) = ix1 h :=
    funext fun a => Fin.ext (by match a with | ⟨0, _⟩ => rfl)
  have hc : ∀ k : Fin 10, idx_main_v20 (idx_main_v21 (ix2 i k)) = ix1 i := fun k =>
    funext fun a => Fin.ext (by match a with | ⟨0, _⟩ => rfl)
  rw [val_main_v28_apply, val_main_v26_apply, val_main_v23_apply, val_main_v27_apply, val_main_v25_apply,
    val_main_v24_apply, hb, Ideal.addf_def, Ideal.addf_def]
  unfold Cert.Sage.layer
  show _ = Cert.Sage.layerAt _ _ _ _ _ _ i h
  unfold Cert.Sage.layerAt
  refine congrArg₂ (· + ·) (congrArg₂ (· + ·) (Finset.sum_congr rfl fun k _ => ?_) rfl)
    (Finset.sum_congr rfl fun k _ => ?_)
  · unfold Cert.Sage.mean
    rw [hl, hr, val_main_v22_apply, val_main_v21_apply, val_main_v20_apply, hc, val_main_v19_apply, val_main_v18_apply,
      val_main_cst_3_apply, Ideal.hostDivf_def, Ideal.maximumf_def, Ideal.ofBits_def]
  · rw [hl', hr']

end Cert.ReferenceIdeal.RefValue

end
-- ==== Proof.LibRowScatter.lean ====
/-
  Row gathers and row scatter-adds read at an index.

  A gather of whole rows of an [N, C] array at a column [E, 1] of start indices gives an [E, C] array whose row e is
  the row of the operand that the e-th start index names, the index read as a signed integer and clamped into
  [0, N - 1]. An accumulating scatter of the rows of an [E, C] array of updates into an [N, C] operand at a column
  [E, 1] of scatter indices adds, on the extended reals, to the operand's entry (i, c) the entries (e, c) of every
  update row e whose index, read signed and NOT clamped, is i; a row whose index falls outside [0, N) is dropped.
  The same for a vector [E] of updates scattered into a vector [N].
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibRowScatter

open Idealize.ShloMosaic Idealize.ShloMosaic.ValueIdx

/-- The operand row the e-th start index names in a gather: read signed, clamped into [0, N - 1]. -/
def gatherRow {E N w : ℕ} (hN : 0 < N) (idx : IVec ⟨2, ![E, 1]⟩ w) (e : Fin E) : Fin N :=
  ⟨min (idx (ix2 e (0 : Fin 1))).toInt.toNat (N - 1), by omega⟩

/-- The operand row the e-th update lands on in a scatter: the index read signed, none when it is outside [0, N). -/
def scatterRow {E w : ℕ} (N : ℕ) (idx : IVec ⟨2, ![E, 1]⟩ w) (e : Fin E) : Option (Fin N) :=
  if h : 0 ≤ (idx (ix2 e (0 : Fin 1))).toInt ∧ (idx (ix2 e (0 : Fin 1))).toInt < (N : ℤ) then
    some ⟨(idx (ix2 e (0 : Fin 1))).toInt.toNat, by omega⟩
  else none

/-- A row gather at (e, c) is the operand at (the row the e-th start index names, c). -/
theorem rowGather_apply {α : Type} {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 (gatherRow hN idx e) c) := by
  obtain ⟨od, cd, ob, sb, sm, iv, ss, wf⟩ := d
  dsimp only at h1 h2 h3 h4 h5 h6 h7
  subst h1 h2 h3 h4 h5 h6 h7
  have h10 : ¬ (1 : Fin 2) = 0 := by decide
  unfold Host.gather
  congr 1
  funext a
  refine Fin.ext ?_
  match a with
  | ⟨0, _⟩ =>
    -- axis 0: the clamped start index, no batching and no offset coordinate
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![N, C]⟩ ⟨2, ![E, 1]⟩ ⟨2, ![E, C]⟩) (hD : D = ⟨[1], [0], [], [], [0], 1, ![1, C], wf⟩)
        (k : Fin D.startIndexMap.length), D.siIdx (ix2 e c) k = ix2 e (0 : Fin 1) := by
      intro D hD k
      subst hD
      funext b; refine Fin.ext ?_
      match b with
      | ⟨0, _⟩ => rfl
      | ⟨1, _⟩ =>
        have : k.val = 0 := by have := k.isLt; simpa using this
        show k.val = 0
        exact this
    rw [hsi _ rfl]
    rfl
  | ⟨1, _⟩ =>
    -- axis 1: start 0 (the start index map does not name it), the offset coordinate is the result's column
    show GatherDims.start _ _ idx 1 + GatherDims.batchCoord _ _ 1 + GatherDims.offCoord _ _ 1 = _
    rw [GatherDims.batchCoord_eq_zero _ _ _ List.not_mem_nil]
    unfold GatherDims.start
    rw [dif_neg (fun h => h10 (List.mem_singleton.mp h))]
    unfold GatherDims.offCoord
    rw [dif_pos ((GatherDims.mem_sKept _ _).mpr ⟨fun h => h10 (List.mem_singleton.mp h), List.not_mem_nil⟩)]
    simp only [Nat.add_zero, Nat.zero_add]
    rfl

/-- An update lands on the operand index k exactly when, on every axis, start plus window coordinate is k's coordinate. -/
private theorem resultIdx?_eq_some_iff {s si u : Shape} (D : ScatterDims s si u) {w : ℕ} (j : u.Idx) (idx : IVec si w)
    (k : s.Idx) :
    D.resultIdx? j idx = some k ↔ ∀ a, D.start j idx a + (D.window j a : ℤ) = ((k a).val : ℤ) := by
  unfold ScatterDims.resultIdx?
  split
  · rename_i h
    constructor
    · intro hk a
      have hv := congrArg Fin.val (congrFun (Option.some.inj hk) a)
      simp only at hv
      have := h a
      omega
    · intro hk
      congr 1
      funext a
      refine Fin.ext ?_
      have := hk a
      show (D.start j idx a + D.window j a).toNat = (k a).val
      omega
  · rename_i h
    constructor
    · intro hk; exact absurd hk (by simp)
    · intro hk
      exfalso; apply h
      intro a
      have := hk a
      have := (k a).isLt
      omega

/-- The e-th update lands on row i exactly when its index, read signed, is i. -/
private theorem scatterRow_eq_some_iff {E w : ℕ} (N : ℕ) (idx : IVec ⟨2, ![E, 1]⟩ w) (e : Fin E) (i : Fin N) :
    scatterRow N idx e = some i ↔ (idx (ix2 e (0 : Fin 1))).toInt = (i.val : ℤ) := by
  unfold scatterRow
  split
  · rename_i h
    constructor
    · intro hk
      have hv := congrArg Fin.val (Option.some.inj hk)
      simp only at hv
      omega
    · intro hk
      congr 1
      refine Fin.ext ?_
      show (idx (ix2 e (0 : Fin 1))).toInt.toNat = i.val
      omega
  · rename_i h
    constructor
    · intro hk; exact absurd hk (by simp)
    · intro hk; exfalso; apply h; have := i.isLt; omega

/-- A row scatter-add on the extended reals at (i, c): the operand's entry plus the entries (e, c) of the update rows
    that land on row i. -/
theorem rowScatterAdd_apply {N C E w : ℕ} {φ : FTy}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (i : Fin N) (c : Fin C) :
    Host.scatterAdd (F := Ideal) d x idx upd (ix2 i c)
      = x (ix2 i c) + ∑ e ∈ Finset.univ.filter (fun e : Fin E => scatterRow N idx e = some i), upd (ix2 e c) := by
  obtain ⟨uw, iw, sd, iv, wf⟩ := d
  dsimp only at h1 h2 h3 h4
  subst h1 h2 h3 h4
  have h10 : ¬ (1 : Fin 2) = 0 := by decide
  -- the two coordinates of the landing index of update (e, c')
  have hstart0 : ∀ (D : ScatterDims ⟨2, ![N, C]⟩ ⟨2, ![E, 1]⟩ ⟨2, ![E, C]⟩) (hD : D = ⟨[1], [0], [0], 1, wf⟩)
      (e : Fin E) (c' : Fin C), D.start (ix2 e c') idx 0 = (idx (ix2 e (0 : Fin 1))).toInt := by
    intro D hD e c'
    subst hD
    unfold ScatterDims.start
    rw [dif_pos (List.mem_singleton.mpr rfl)]
    congr 2
    funext b; refine Fin.ext ?_
    match b with
    | ⟨0, _⟩ => rfl
    | ⟨1, _⟩ => rfl
  have hstart1 : ∀ (D : ScatterDims ⟨2, ![N, C]⟩ ⟨2, ![E, 1]⟩ ⟨2, ![E, C]⟩) (hD : D = ⟨[1], [0], [0], 1, wf⟩)
      (e : Fin E) (c' : Fin C), D.start (ix2 e c') idx 1 = 0 := by
    intro D hD e c'
    subst hD
    unfold ScatterDims.start
    rw [dif_neg (fun h => h10 (List.mem_singleton.mp h))]
  have hwin0 : ∀ (D : ScatterDims ⟨2, ![N, C]⟩ ⟨2, ![E, 1]⟩ ⟨2, ![E, C]⟩) (hD : D = ⟨[1], [0], [0], 1, wf⟩)
      (e : Fin E) (c' : Fin C), D.window (ix2 e c') 0 = 0 := by
    intro D hD e c'
    subst hD
    unfold ScatterDims.window
    rw [dif_neg]
    intro h
    have : (0 : Fin 2) ∈ (List.finRange 2).filter (· ∉ [(0 : Fin 2)]) := h
    simp at this
  have hwin1 : ∀ (D : ScatterDims ⟨2, ![N, C]⟩ ⟨2, ![E, 1]⟩ ⟨2, ![E, C]⟩) (hD : D = ⟨[1], [0], [0], 1, wf⟩)
      (e : Fin E) (c' : Fin C), D.window (ix2 e c') 1 = c'.val := by
    intro D hD e c'
    subst hD
    unfold ScatterDims.window
    rw [dif_pos]
    · rfl
    · show (1 : Fin 2) ∈ (List.finRange 2).filter (· ∉ [(0 : Fin 2)])
      decide
  -- update (e, c') lands on (i, c) exactly when c' = c and row e lands on row i
  have hP : ∀ (D : ScatterDims ⟨2, ![N, C]⟩ ⟨2, ![E, 1]⟩ ⟨2, ![E, C]⟩) (hD : D = ⟨[1], [0], [0], 1, wf⟩)
      (e : Fin E) (c' : Fin C),
      D.resultIdx? (ix2 e c') idx = some (ix2 i c) ↔ (c' = c ∧ scatterRow N idx e = some i) := by
    intro D hD e c'
    rw [resultIdx?_eq_some_iff, scatterRow_eq_some_iff]
    have a0 := hstart0 D hD e c'
    have a1 := hstart1 D hD e c'
    have b0 := hwin0 D hD e c'
    have b1 := hwin1 D hD e c'
    constructor
    · intro h
      have g0 := h 0
      have g1 := h 1
      rw [a0, b0] at g0
      rw [a1, b1] at g1
      have g0' : (idx (ix2 e (0 : Fin 1))).toInt + ((0 : ℕ) : ℤ) = (i.val : ℤ) := g0
      have g1' : (0 : ℤ) + (c'.val : ℤ) = (c.val : ℤ) := g1
      exact ⟨Fin.ext (by omega), by omega⟩
    · rintro ⟨hc, hz⟩ a
      match a with
      | ⟨0, _⟩ =>
        show D.start (ix2 e c') idx 0 + (D.window (ix2 e c') 0 : ℤ) = (i.val : ℤ)
        rw [a0, b0]; omega
      | ⟨1, _⟩ =>
        show D.start (ix2 e c') idx 1 + (D.window (ix2 e c') 1 : ℤ) = (c.val : ℤ)
        rw [a1, b1, hc]; omega
  rw [Host.scatterAdd, Ideal.hostScatterAdd_def]
  unfold Ideal.hostScatterAdd
  congr 1
  rw [Finset.sum_filter, Finset.sum_filter, sum_idx2]
  refine Finset.sum_congr rfl fun e _ => ?_
  simp only [hP _ rfl]
  by_cases hQ : scatterRow N idx e = some i
  · simp only [hQ, and_true, Finset.sum_ite_eq', Finset.mem_univ, if_true]
  · simp only [hQ, and_false, if_false, Finset.sum_const_zero]

/-- A vector scatter-add on the extended reals at i: the operand's entry plus the updates that land on i. -/
theorem vecScatterAdd_apply {N E w : ℕ} {φ : FTy}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e ∈ Finset.univ.filter (fun e : Fin E => scatterRow N idx e = some i), upd (ix1 e) := by
  obtain ⟨uw, iw, sd, iv, wf⟩ := d
  dsimp only at h1 h2 h3 h4
  subst h1 h2 h3 h4
  -- the one coordinate of the landing index of update e
  have hstart0 : ∀ (D : ScatterDims ⟨1, ![N]⟩ ⟨2, ![E, 1]⟩ ⟨1, ![E]⟩) (hD : D = ⟨[], [0], [0], 1, wf⟩)
      (e : Fin E), D.start (ix1 e) idx 0 = (idx (ix2 e (0 : Fin 1))).toInt := by
    intro D hD e
    subst hD
    unfold ScatterDims.start
    rw [dif_pos (List.mem_singleton.mpr rfl)]
    congr 2
    funext b; refine Fin.ext ?_
    match b with
    | ⟨0, _⟩ => rfl
    | ⟨1, _⟩ => rfl
  have hwin0 : ∀ (D : ScatterDims ⟨1, ![N]⟩ ⟨2, ![E, 1]⟩ ⟨1, ![E]⟩) (hD : D = ⟨[], [0], [0], 1, wf⟩)
      (e : Fin E), D.window (ix1 e) 0 = 0 := by
    intro D hD e
    subst hD
    unfold ScatterDims.window
    rw [dif_neg]
    intro h
    have : (0 : Fin 1) ∈ (List.finRange 1).filter (· ∉ [(0 : Fin 1)]) := h
    simp at this
  -- update e lands on i exactly when its index, read signed, is i
  have hP : ∀ (D : ScatterDims ⟨1, ![N]⟩ ⟨2, ![E, 1]⟩ ⟨1, ![E]⟩) (hD : D = ⟨[], [0], [0], 1, wf⟩)
      (e : Fin E), D.resultIdx? (ix1 e) idx = some (ix1 i) ↔ scatterRow N idx e = some i := by
    intro D hD e
    rw [resultIdx?_eq_some_iff, scatterRow_eq_some_iff]
    have a0 := hstart0 D hD e
    have b0 := hwin0 D hD e
    constructor
    · intro h
      have g0 := h 0
      rw [a0, b0] at g0
      have g0' : (idx (ix2 e (0 : Fin 1))).toInt + ((0 : ℕ) : ℤ) = (i.val : ℤ) := g0
      omega
    · intro hz a
      match a with
      | ⟨0, _⟩ =>
        show D.start (ix1 e) idx 0 + (D.window (ix1 e) 0 : ℤ) = (i.val : ℤ)
        rw [a0, b0]; omega
  rw [Host.scatterAdd, Ideal.hostScatterAdd_def]
  unfold Ideal.hostScatterAdd
  congr 1
  -- a rank-1 index set is its one coordinate's range
  let eqv : (⟨1, ![E]⟩ : Shape).Idx ≃ Fin E :=
    { toFun := fun j => j 0, invFun := fun e => ix1 e, left_inv := fun j => (eq_ix1 j).symm, right_inv := fun _ => rfl }
  rw [Finset.sum_filter, Finset.sum_filter, ← Equiv.sum_comp eqv.symm]
  refine Finset.sum_congr rfl fun e _ => ?_
  exact if_congr (hP _ rfl e) rfl rfl

end Cert.LibRowScatter

end
-- ==== Proof.LibConcatCols.lean ====
/-
  Two matrices laid side by side, read at an entry.

  The concatenation along the column axis of a `[K, C₁]` and a `[K, C₂]` array into `[K, D]` reads, at `(k, d)`,
  the first array at `(k, d)` when `d` is one of its columns, and the second at `(k, d − C₁)` otherwise. Stated with
  the column of the piece given and the column of the whole tied to it by an equation, so that both fit whatever way
  a program numbers its columns.
-/
import Idealize.ShloMosaic.Lib.Pipeline.Value
import Idealize.ShloMosaic.Lib.ValueIdx

namespace Cert.LibConcatCols

open Idealize.ShloMosaic Idealize.ShloMosaic.ValueIdx

variable {α : Type}

/-- Column `d` of the whole is column `c` of the LEFT piece (`d = c`): the whole at `(k, d)` is the left piece at
    `(k, c)`. -/
theorem concat_cols_left {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₁) (d : Fin D)
    (hd : d.val = c.val) :
    concatenate ⟨2, ![K, D]⟩ 1 [⟨⟨2, ![K, C₁]⟩, x₁⟩, ⟨⟨2, ![K, C₂]⟩, x₂⟩] h (ix2 k d) = x₁ (ix2 k c) :=
  concatenate_pair_apply_left 1 x₁ x₂ h (ix2 k d) rfl (ix2 k c) fun b =>
    match b with
    | ⟨0, _⟩ => rfl
    | ⟨1, _⟩ => hd.symm

/-- Column `d` of the whole is column `c` of the RIGHT piece (`d = C₁ + c`): the whole at `(k, d)` is the right piece
    at `(k, c)`. -/
theorem concat_cols_right {K C₁ C₂ D : ℕ} (x₁ : (⟨2, ![K, C₁]⟩ : Shape).Idx → α) (x₂ : (⟨2, ![K, C₂]⟩ : Shape).Idx → α)
    (h : Shape.Concatenates [⟨2, ![K, C₁]⟩, ⟨2, ![K, C₂]⟩] ⟨2, ![K, D]⟩ 1) (k : Fin K) (c : Fin C₂) (d : Fin D)
    (hd : d.val = C₁ + c.val) :
    concatenate ⟨2, ![K, D]⟩ 1 [⟨⟨2, ![K, C₁]⟩, x₁⟩, ⟨⟨2, ![K, C₂]⟩, x₂⟩] h (ix2 k d) = x₂ (ix2 k c) :=
  concatenate_pair_apply_right 1 x₁ x₂ h (ix2 k d) rfl rfl (ix2 k c)
    (fun b hb =>
      match b, hb with
      | ⟨0, _⟩, _ => rfl
      | ⟨1, _⟩, hb => absurd rfl hb)
    (by show c.val + C₁ = d.val; omega)

end Cert.LibConcatCols
-- ==== Proof.LibScatterCols.lean ====
/-
  A scatter-add of rows with a column of ones appended splits into the scatter-add of the rows and the count.

  Let msgs be an [E, C] array of update rows, idx an [E, 1] column of target rows, and aug the [E, C + 1] array whose
  first C columns are msgs and whose last column is constant u. Scatter-adding aug into an [N, C + 1] array of a
  constant z gives, in column c < C, what scatter-adding msgs into an [N, C] array of z gives in column c, and in the
  last column what scatter-adding the vector [E] of u into a vector [N] of z gives: each entry is z plus the sum,
  over the update rows that land on the target row, of that column's entries, and the landing rows depend on idx only.
-/
import proofs.«144030_j39032662786373_2_alg».proof.Proof.LibRowScatter
import proofs.«144030_j39032662786373_2_alg».proof.Proof.LibConcatCols
import proofs.«144030_j39032662786373_2_alg».proof.Proof.LibColumn

noncomputable section

open scoped BigOperators

namespace Cert.LibScatterCols

open Idealize.ShloMosaic Idealize.ShloMosaic.ValueIdx Cert.LibRowScatter Cert.LibConcatCols Cert.LibColumn

variable {N C E D w : ℕ} {φ : FTy}

/-- A column c < C of the augmented scatter is that column of the plain scatter. -/
theorem aug_scatter_left
    (dA : ScatterDims ⟨2, ![N, D]⟩ ⟨2, ![E, 1]⟩ ⟨2, ![E, D]⟩)
    (a1 : dA.updateWindowDims = [1]) (a2 : dA.insertedWindowDims = [0]) (a3 : dA.scatterDimsToOperandDims = [0])
    (a4 : dA.indexVectorDim = 1)
    (dP : ScatterDims ⟨2, ![N, C]⟩ ⟨2, ![E, 1]⟩ ⟨2, ![E, C]⟩)
    (p1 : dP.updateWindowDims = [1]) (p2 : dP.insertedWindowDims = [0]) (p3 : dP.scatterDimsToOperandDims = [0])
    (p4 : dP.indexVectorDim = 1)
    (z : FVec Ideal ⟨0, ![]⟩ φ)
    (hzA : (⟨0, ![]⟩ : Shape).BroadcastsInDim ⟨2, ![N, D]⟩ (![] : Fin 0 → Fin 2))
    (hzP : (⟨0, ![]⟩ : Shape).BroadcastsInDim ⟨2, ![N, C]⟩ (![] : Fin 0 → Fin 2))
    (idx : IVec ⟨2, ![E, 1]⟩ w) (msgs : FVec Ideal ⟨2, ![E, C]⟩ φ) (ones : FVec Ideal ⟨2, ![E, 1]⟩ φ)
    (hcat : Shape.Concatenates [⟨2, ![E, C]⟩, ⟨2, ![E, 1]⟩] ⟨2, ![E, D]⟩ 1)
    (i : Fin N) (c : Fin C) (d : Fin D) (hd : d.val = c.val) :
    Host.scatterAdd (F := Ideal) dA (broadcastInDim ⟨2, ![N, D]⟩ ![] hzA z) idx
        (concatenate ⟨2, ![E, D]⟩ 1 [⟨⟨2, ![E, C]⟩, msgs⟩, ⟨⟨2, ![E, 1]⟩, ones⟩] hcat) (ix2 i d)
      = Host.scatterAdd (F := Ideal) dP (broadcastInDim ⟨2, ![N, C]⟩ ![] hzP z) idx msgs (ix2 i c) := by
  rw [rowScatterAdd_apply dA a1 a2 a3 a4, rowScatterAdd_apply dP p1 p2 p3 p4,
    bcastInDim_scalar_apply z hzA (ix2 i d) ix0, bcastInDim_scalar_apply z hzP (ix2 i c) ix0]
  refine congrArg (fun s => z ix0 + s) (Finset.sum_congr rfl fun e _ => ?_)
  exact concat_cols_left msgs ones hcat e c d hd

/-- The last column of the augmented scatter is the vector scatter of the appended column's constant. -/
theorem aug_scatter_right
    (dA : ScatterDims ⟨2, ![N, D]⟩ ⟨2, ![E, 1]⟩ ⟨2, ![E, D]⟩)
    (a1 : dA.updateWindowDims = [1]) (a2 : dA.insertedWindowDims = [0]) (a3 : dA.scatterDimsToOperandDims = [0])
    (a4 : dA.indexVectorDim = 1)
    (dV : ScatterDims ⟨1, ![N]⟩ ⟨2, ![E, 1]⟩ ⟨1, ![E]⟩)
    (v1 : dV.updateWindowDims = []) (v2 : dV.insertedWindowDims = [0]) (v3 : dV.scatterDimsToOperandDims = [0])
    (v4 : dV.indexVectorDim = 1)
    (z u : FVec Ideal ⟨0, ![]⟩ φ)
    (hzA : (⟨0, ![]⟩ : Shape).BroadcastsInDim ⟨2, ![N, D]⟩ (![] : Fin 0 → Fin 2))
    (hzV : (⟨0, ![]⟩ : Shape).BroadcastsInDim ⟨1, ![N]⟩ (![] : Fin 0 → Fin 1))
    (huA : (⟨0, ![]⟩ : Shape).BroadcastsInDim ⟨2, ![E, 1]⟩ (![] : Fin 0 → Fin 2))
    (huV : (⟨0, ![]⟩ : Shape).BroadcastsInDim ⟨1, ![E]⟩ (![] : Fin 0 → Fin 1))
    (idx : IVec ⟨2, ![E, 1]⟩ w) (msgs : FVec Ideal ⟨2, ![E, C]⟩ φ)
    (hcat : Shape.Concatenates [⟨2, ![E, C]⟩, ⟨2, ![E, 1]⟩] ⟨2, ![E, D]⟩ 1)
    (i : Fin N) (d : Fin D) (hd : d.val = C) :
    Host.scatterAdd (F := Ideal) dA (broadcastInDim ⟨2, ![N, D]⟩ ![] hzA z) idx
        (concatenate ⟨2, ![E, D]⟩ 1 [⟨⟨2, ![E, C]⟩, msgs⟩, ⟨⟨2, ![E, 1]⟩, broadcastInDim ⟨2, ![E, 1]⟩ ![] huA u⟩] hcat)
        (ix2 i d)
      = Host.scatterAdd (F := Ideal) dV (broadcastInDim ⟨1, ![N]⟩ ![] hzV z) idx
          (broadcastInDim ⟨1, ![E]⟩ ![] huV u) (ix1 i) := by
  rw [rowScatterAdd_apply dA a1 a2 a3 a4, vecScatterAdd_apply dV v1 v2 v3 v4,
    bcastInDim_scalar_apply z hzA (ix2 i d) ix0, bcastInDim_scalar_apply z hzV (ix1 i) ix0]
  refine congrArg (fun s => z ix0 + s) (Finset.sum_congr rfl fun e _ => ?_)
  rw [concat_cols_right msgs (broadcastInDim ⟨2, ![E, 1]⟩ ![] huA u) hcat e (0 : Fin 1) d (by simpa using hd),
    bcastInDim_scalar_apply u huA (ix2 e (0 : Fin 1)) ix0, bcastInDim_scalar_apply u huV (ix1 e) ix0]

end Cert.LibScatterCols

end
-- ==== Proof.LibColVec.lean ====
/-
  A column read as a vector.

  A column `[a, 1]` cast to a vector `[a]` reads, at `p`, the column's entry `(p, 0)`: the two have the same
  row-major position.
-/
import Idealize.ShloMosaic.Lib.Pipeline.Value
import Idealize.ShloMosaic.Lib.ValueIdx

namespace Cert.LibColVec

open Idealize.ShloMosaic Idealize.ShloMosaic.ValueIdx

variable {α : Type}

/-- A column `[a, 1]` cast to a vector `[a]` reads, at `p`, the column's entry `(p, 0)`. -/
theorem shapeCast_a1_a_apply {a : ℕ} (v : (⟨2, ![a, 1]⟩ : Shape).Idx → α)
    (h : (⟨2, ![a, 1]⟩ : Shape).ShapeCasts ⟨1, ![a]⟩) (p : Fin a) :
    shapeCast ⟨1, ![a]⟩ v h (ix1 p) = v (ix2 p (0 : Fin 1)) :=
  shapeCast_apply v h _ _ (by
    rw [Shape.rowMajor_val_two, Shape.rowMajor_val_one]
    show p.val * 1 + (0 : Fin 1).val = p.val
    simp)

end Cert.LibColVec
-- ==== Proof.Bridge.lean ====
/-
  The kernel's summed features and counts are the reference's.

  The kernel scatter-adds the gathered source features with a column of ones appended; the reference scatter-adds the
  gathered source features, and separately a vector of ones, at the same target rows. Both gather with the same
  source indices and scatter at the same target indices (the same rows of the edge list, through the same index
  arithmetic), so by the splitting of an augmented scatter-add the first ten columns of the kernel's scatter are the
  reference's summed features and its last column is the reference's counts.
-/
import proofs.«144030_j39032662786373_2_alg».proof.Proof.KernelTerms
import proofs.«144030_j39032662786373_2_alg».proof.Proof.LibScatterCols
import proofs.«144030_j39032662786373_2_alg».proof.Proof.LibColVec
import proofs.«144030_j39032662786373_2_alg».proof.Proof.Gen.ReferenceIdeal.Read
import Idealize.ShloMosaic.Lib.ValueLayout

noncomputable section

namespace Cert.Bridge

open Idealize.ShloMosaic Idealize.ShloMosaic.ValueIdx Cert.KernelIdeal.Host Cert.ReferenceIdeal.Read

/-- Both programs scatter at the same column of target rows. -/
theorem dst_eq (x1 : IVec Cert.KernelIdeal.S2x6400000 32) : val_main_v12 (F := Ideal) x1 = dstCol x1 := rfl

/-- The reference's second scatter uses that column too. -/
theorem dst_eq' (x1 : IVec Cert.KernelIdeal.S2x6400000 32) : val_main_v16 (F := Ideal) x1 = dstCol x1 := rfl

/-- Both programs gather the same source rows. -/
theorem msgs_eq (x0 : FVec Ideal Cert.KernelIdeal.S100000x10 .f32) (x1 : IVec Cert.KernelIdeal.S2x6400000 32) :
    val_main_v10 (F := Ideal) x0 x1 = msgs x0 x1 := rfl

/-- The reference's summed features, spelt over the shared target column and messages. -/
theorem ref_summed (x0 : FVec Ideal Cert.KernelIdeal.S100000x10 .f32) (x1 : IVec Cert.KernelIdeal.S2x6400000 32) :
    val_main_v13 (F := Ideal) x0 x1
      = Host.scatterAdd (F := Ideal) Cert.ReferenceIdeal.scatter_S100000x10_S6400000x1_S6400000x10_1_0_0_1
          (broadcastInDim Cert.ReferenceIdeal.S100000x10 ![] Cert.ReferenceIdeal.Gen.bcast_S_S100000x10
            (constant (F := Ideal) Cert.ReferenceIdeal.S_ .f32 0x00000000#32))
          (dstCol x1) (msgs x0 x1) := by
  unfold val_main_v13
  rw [dst_eq, msgs_eq]
  rfl

/-- The reference's counts, spelt over the shared target column. -/
theorem ref_counts (x1 : IVec Cert.KernelIdeal.S2x6400000 32) :
    val_main_v17 (F := Ideal) x1
      = Host.scatterAdd (F := Ideal) Cert.ReferenceIdeal.scatter_S100000_S6400000x1_S6400000_n_0_0_1
          (broadcastInDim Cert.ReferenceIdeal.S100000 ![] Cert.ReferenceIdeal.Gen.bcast_S_S100000
            (constant (F := Ideal) Cert.ReferenceIdeal.S_ .f32 0x00000000#32))
          (dstCol x1)
          (broadcastInDim Cert.ReferenceIdeal.S6400000 ![] Cert.ReferenceIdeal.Gen.bcast_S_S6400000
            (constant (F := Ideal) Cert.ReferenceIdeal.S_ .f32 0x3F800000#32)) := by
  unfold val_main_v17
  rw [dst_eq']
  rfl

/-- The first ten columns of the kernel's scatter-add are the reference's summed features. -/
theorem summed_eq (x0 : FVec Ideal Cert.KernelIdeal.S100000x10 .f32) (x1 : IVec Cert.KernelIdeal.S2x6400000 32) :
    kS x0 x1 = val_main_v13 (F := Ideal) x0 x1 := by
  funext j
  obtain ⟨i, k, rfl⟩ : ∃ (i : Fin 100000) (k : Fin 10), j = ix2 i k := ⟨j 0, j 1, eq_ix2 j⟩
  rw [ref_summed]
  unfold kS
  rw [slice2_axis1_apply 0 (aug x0 x1) Cert.KernelIdeal.Gen.slices_S100000x11_S100000x10_0_0 i k
    (⟨k.val, by omega⟩ : Fin 11) (by simp)]
  unfold aug
  exact Cert.LibScatterCols.aug_scatter_left _ rfl rfl rfl rfl _ rfl rfl rfl rfl _ _ _ _ _ _ _ i k _ rfl

/-- The last column of the kernel's scatter-add is the reference's counts. -/
theorem counts_eq (x0 : FVec Ideal Cert.KernelIdeal.S100000x10 .f32) (x1 : IVec Cert.KernelIdeal.S2x6400000 32) :
    kCn x0 x1 = val_main_v17 (F := Ideal) x1 := by
  funext j
  obtain ⟨i, rfl⟩ : ∃ i : Fin 100000, j = ix1 i := ⟨j 0, eq_ix1 j⟩
  rw [ref_counts]
  unfold kCn
  rw [Cert.LibColVec.shapeCast_a1_a_apply,
    slice2_axis1_apply 10 (aug x0 x1) Cert.KernelIdeal.Gen.slices_S100000x11_S100000x1_0_10 i (0 : Fin 1)
      (⟨10, by omega⟩ : Fin 11) (by simp)]
  unfold aug
  exact Cert.LibScatterCols.aug_scatter_right _ rfl rfl rfl rfl _ rfl rfl rfl rfl _ _ _ _ _ _ _ _ _ i _ rfl

end Cert.Bridge

end
-- ==== Proof.lean ====
/-
  A mean-aggregation graph convolution: a kernel against its reference, on the extended reals.

  Both programs gather each edge's source features and scatter-add them at the edge's target; the reference counts the
  edges of each target with a second scatter-add of ones, the kernel program appends a column of ones to the messages
  and reads the counts off the last column of ONE scatter-add. Both then divide each summed feature by the count
  floored at one and apply out = mean · Wl + b + x · Wr: the reference on the host in that order, the kernel program
  in a launched kernel on the transposed, node-padded arrays, tile of 12544 nodes by tile, as
  Wlᵀ · meanᵀ + Wrᵀ · xᵀ + b, whose first 100000 columns the host then transposes back.

  Spec.lean states the layer and the one law that joins the two arrangements (products commute and sums regroup
  on the extended reals; no entry has to be finite); LibScatterCols.lean splits the augmented scatter-add into the two
  scatter-adds (over LibRowScatter, LibConcatCols, LibColumn); RefValue.lean reads the reference's run as the layer
  over its sums and counts; Payload.lean, Blocks.lean, KernelEntry.lean, KernelRead.lean and KernelRun.lean read the
  kernel program's run as the layer over its own sums and counts; Bridge.lean identifies the two pairs. The frames
  are the generated ones; the idealization rewrote nothing, so it preserves the kernel trivially.
-/
import proofs.«144030_j39032662786373_2_alg».proof.Defs
import proofs.«144030_j39032662786373_2_alg».proof.Proof.Gen.Kernel
import proofs.«144030_j39032662786373_2_alg».proof.Proof.Gen.Kernel.Skeleton
import proofs.«144030_j39032662786373_2_alg».proof.Proof.Gen.Kernel.Launch
import proofs.«144030_j39032662786373_2_alg».proof.Proof.Gen.Kernel.Points
import proofs.«144030_j39032662786373_2_alg».proof.Proof.Gen.Kernel.Frame
import proofs.«144030_j39032662786373_2_alg».proof.Proof.Gen.KernelIdeal
import proofs.«144030_j39032662786373_2_alg».proof.Proof.Gen.KernelIdeal.Skeleton
import proofs.«144030_j39032662786373_2_alg».proof.Proof.Gen.KernelIdeal.Launch
import proofs.«144030_j39032662786373_2_alg».proof.Proof.Gen.KernelIdeal.Points
import proofs.«144030_j39032662786373_2_alg».proof.Proof.Gen.KernelIdeal.Frame
import proofs.«144030_j39032662786373_2_alg».proof.Proof.Gen.ReferenceIdeal
import proofs.«144030_j39032662786373_2_alg».proof.Proof.Gen.Pre_finite_inputs
import proofs.«144030_j39032662786373_2_alg».proof.Proof.Gen.ReferenceIdeal.Run
import proofs.«144030_j39032662786373_2_alg».proof.Proof.Gen.ReferenceIdeal.Read
import proofs.«144030_j39032662786373_2_alg».proof.Proof.KernelRun
import proofs.«144030_j39032662786373_2_alg».proof.Proof.RefValue
import proofs.«144030_j39032662786373_2_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer over the same summed features and the
    same counts: the kernel program's own (KernelRun.lean) are the reference's (Bridge.lean), and the reference's
    result is the layer over those (RefValue.lean). -/
theorem algebraic : Cert.algebraic_KernelIdeal_ReferenceIdeal := by
  intro m ρ m' ρ' _ hagree
  refine ⟨_, Cert.KernelIdeal.Res.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq_layer, (hagree c).1,
    (hagree c).2.1, (hagree c).2.2.1, (hagree c).2.2.2.1, (hagree c).2.2.2.2, Cert.Bridge.summed_eq,
    Cert.Bridge.counts_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
